-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S100000 : Shape := ⟨1, ![100000]⟩
abbrev S128x128 : Shape := ⟨2, ![128, 128]⟩
abbrev S128 : Shape := ⟨1, ![128]⟩
abbrev S64x256 : Shape := ⟨2, ![64, 256]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S128 .f32) (main_arg10 : FVec F S64x256 .f32) (main_arg11 : FVec F S64 .f32) (main_arg12 : FVec F S64x64 .f32) (main_arg13 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x256 .f32 := Host.absf main_arg10
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S64x256 .f32) (main_arg11 : FVec F S64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : FVec F S100000x64 .f32) (main_arg2 : IVec S2x1600000 32) (main_arg3 : FVec F S1600000x64 .f32) (main_arg4 : FVec F S64x64 .f32) (main_arg5 : IVec S100000 32) (main_arg6 : FVec F S128x128 .f32) (main_arg7 : FVec F S128 .f32) (main_arg8 : FVec F S128x128 .f32) (main_arg9 : FVec F S128 .f32) (main_arg10 : FVec F S64x256 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000x64 .f32 := Host.absf main_arg3
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S100000 : Shape := ⟨1, ![100000]⟩
abbrev S128x128 : Shape := ⟨2, ![128, 128]⟩
abbrev S128 : Shape := ⟨1, ![128]⟩
abbrev S64x256 : Shape := ⟨2, ![64, 256]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S64x128 : Shape := ⟨2, ![64, 128]⟩
abbrev S1x128 : Shape := ⟨2, ![1, 128]⟩
abbrev S1600000x128 : Shape := ⟨2, ![1600000, 128]⟩
abbrev S8000x64 : Shape := ⟨2, ![8000, 64]⟩
abbrev S8000x128 : Shape := ⟨2, ![8000, 128]⟩
abbrev S100000x128 : Shape := ⟨2, ![100000, 128]⟩
abbrev S100000x1 : Shape := ⟨2, ![100000, 1]⟩
abbrev S256x64 : Shape := ⟨2, ![256, 64]⟩
abbrev S128x64 : Shape := ⟨2, ![128, 64]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 55
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S1600000x64, .f32⟩
  | .hbm, ⟨4, _⟩ => ⟨S64x64, .f32⟩
  | .hbm, ⟨5, _⟩ => ⟨S100000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x256, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S128x128, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S1x128, .f32⟩
  | .hbm, ⟨32, _⟩ => ⟨S1x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000x64, .f32⟩
  | .hbm, ⟨47, _⟩ => ⟨S256x64, .f32⟩
  | .hbm, ⟨48, _⟩ => ⟨S64x64, .f32⟩
  | .hbm, ⟨49, _⟩ => ⟨S128x64, .f32⟩
  | .hbm, ⟨50, _⟩ => ⟨S64x64, .f32⟩
  | .hbm, ⟨51, _⟩ => ⟨S64x64, .f32⟩
  | .hbm, ⟨52, _⟩ => ⟨S1x64, .f32⟩
  | .hbm, ⟨53, _⟩ => ⟨S1x64, .f32⟩
  | .hbm, ⟨54, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x64, .f32⟩
  | .local _ .vmem, ⟨12, _⟩ => ⟨S5000x64, .f32⟩
  | .local _ .vmem, ⟨13, _⟩ => ⟨S5000x128, .f32⟩
  | .local _ .vmem, ⟨14, _⟩ => ⟨S5000x128, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S128x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  slices_S128x128_S64x128_0_0 : S128x128.Slices ![0, 0] S64x128
  slices_S128x128_S64x128_64_0 : S128x128.Slices ![64, 0] S64x128
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x128_S8000x128_0_0 : ∀ a, (![0, 0] : Fin 2 → Nat) a + S8000x128.size a ≤ S8000x128.size a
  h_S8000x128 : 0 < S8000x128.numel
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  transposes_S64x256_S256x64_1_0 : S64x256.Transposes [1, 0] S256x64
  slices_S256x64_S64x64_0_0 : S256x64.Slices ![0, 0] S64x64
  slices_S256x64_S128x64_64_0 : S256x64.Slices ![64, 0] S128x64
  slices_S256x64_S64x64_192_0 : S256x64.Slices ![192, 0] S64x64
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  scatter_S100000x128_S1600000x1_S1600000x128_1_0_0_1_wf : ScatterDims.WF S100000x128 S1600000x1 S1600000x128 [1] [0] [0] 1
  gather_S64x64_S100000x1_S100000x64_1_0_n_n_0_1_164_wf : GatherDims.WF S64x64 S100000x1 S100000x64 [1] [0] [] [0] [] 1 ![1, 64]
  dot_S5000x64_S64x64_S5000x64_1_0_0_1_n_n_wf : DotDims.WF S5000x64 S64x64 S5000x64 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S1600000x128.size a
  hwx0_7 : ∀ i : grid0.Coords, EltTy.bits .f32 = 32 ∨ (Rect.block (s := S1600000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S100000 : Shape := ⟨1, ![100000]⟩
abbrev S128x128 : Shape := ⟨2, ![128, 128]⟩
abbrev S128 : Shape := ⟨1, ![128]⟩
abbrev S64x256 : Shape := ⟨2, ![64, 256]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x128 : Shape := ⟨2, ![100000, 128]⟩
abbrev S100000x1 : Shape := ⟨2, ![100000, 1]⟩
abbrev S100000x256 : Shape := ⟨2, ![100000, 256]⟩
abbrev S256x64 : Shape := ⟨2, ![256, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S1600000x64, .f32⟩
  | .hbm, ⟨4, _⟩ => ⟨S64x64, .f32⟩
  | .hbm, ⟨5, _⟩ => ⟨S100000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x256, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x128, .f32⟩
  | .hbm, ⟨28, _⟩ => ⟨S128x128, .f32⟩
  | .hbm, ⟨29, _⟩ => ⟨S1600000x128, .f32⟩
  | .hbm, ⟨30, _⟩ => ⟨S1x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S_, .f32⟩
  | .hbm, ⟨35, _⟩ => ⟨S1600000x128, .f32⟩
  | .hbm, ⟨36, _⟩ => ⟨S1600000x128, .i1⟩
  | .hbm, ⟨37, _⟩ => ⟨S_, .f32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S128x128, .f32⟩
  | .hbm, ⟨42, _⟩ => ⟨S1600000x128, .f32⟩
  | .hbm, ⟨43, _⟩ => ⟨S1x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x64, .f32⟩
  | .hbm, ⟨59, _⟩ => ⟨S100000x256, .f32⟩
  | .hbm, ⟨60, _⟩ => ⟨S256x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S_, .f32⟩
  | .hbm, ⟨67, _⟩ => ⟨S100000x64, .f32⟩
  | .hbm, ⟨68, _⟩ => ⟨S100000x64, .i1⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  transposes_S128x128_S128x128_1_0 : S128x128.Transposes [1, 0] S128x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x128_S100000x64_S100000x256_d1 : Shape.Concatenates [S100000x64, S100000x128, S100000x64] S100000x256 1
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  gather_S64x64_S100000x1_S100000x64_1_0_n_n_0_1_164_wf : GatherDims.WF S64x64 S100000x1 S100000x64 [1] [0] [] [0] [] 1 ![1, 64]
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run with its RESULT named. The program is four segments: host operations, the edge
  region (a grid of 200 points), host operations (among them the scatter-sum and the small-table gather), the node
  region (a grid of 20 points). The buffer contents at each segment boundary form a fold from the launch memory
  (`Gen.W0` … `Gen.W4`); the launch over the segments ends with every unscoped buffer at the last boundary's contents
  `Gen.W4`. Read there: the result buffer holds the node region's output array as its write-backs leave it, and each
  argument buffer holds what it was launched with.
-/
import proofs.«142320_j24756191494620_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the node region's output window's array: at the last boundary it holds what the region's
    write-backs leave. -/
theorem W4_result (c : Dev nD) :
    W4 m ρ c (Proc.devRef .tc main_v35) = (dat1 (V3 m ρ) c).arrAt 9 cfg1.N :=
  W4_arr m ρ c 9

set_option backward.isDefEq.respectTransparency.types false in
/-- Every weakly fair execution of the program terminates, nothing faulting, with the result buffer at the last
    boundary's contents and the argument buffers as launched. -/
theorem run : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.KRun

end
-- ==== Proof.RefRun.lean ====
/-
  The reference program read back as a function of its arguments. The program is a straight line of host
  operations (two of them calls of an activation function, whose bodies are run at the call site); its run from
  any memory terminates with every buffer at the fold of the operations' results over the launch contents. The
  stages of that fold are named here as functions of the argument arrays — the gathered source rows, the first
  layer and its activation, the messages, their sum into the target rows, the second gather, the last two layers
  — and the result buffer is shown to hold the last stage, the arguments unchanged.
-/
import proofs.«142320_j24756191494620_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the argument arrays

Each definition is the printed operations of one stretch of the program composed, over the contents of the
arguments it reads: `a0` … `a13` stand for the contents of the fourteen arguments, in order. -/

/-- The gathered rows beside the edge features: one row of 128 per edge. -/
def rCat1 (x : (⟨S1600000x64, .f32⟩ : BufTy).Contents (Elt F)) (e : (⟨S1600000x64, .f32⟩ : BufTy).Contents (Elt F)) : (⟨S1600000x128, .f32⟩ : BufTy).Contents (Elt F) :=
  concatenate S1600000x128 1 [⟨S1600000x64, x⟩, ⟨S1600000x64, e⟩] concatenates_S1600000x64_S1600000x64_S1600000x128_d1

/-- The second node features, the summed messages and the gathered table rows side by side: one row of 256 per node. -/
def rCat2 (x : (⟨S100000x64, .f32⟩ : BufTy).Contents (Elt F)) (g : (⟨S100000x128, .f32⟩ : BufTy).Contents (Elt F)) (u : (⟨S100000x64, .f32⟩ : BufTy).Contents (Elt F)) : (⟨S100000x256, .f32⟩ : BufTy).Contents (Elt F) :=
  concatenate S100000x256 1 [⟨S100000x64, x⟩, ⟨S100000x128, g⟩, ⟨S100000x64, u⟩] concatenates_S100000x64_S100000x128_S100000x64_S100000x256_d1

/-- Row `0` of the edge table as a vector: the edges' source rows. -/
def rRow0 (a2 : (⟨S2x1600000, .i32⟩ : BufTy).Contents (Elt F)) : (⟨S1600000, .i32⟩ : BufTy).Contents (Elt F) :=
  shapeCast S1600000 (extractStridedSlice S1x1600000 ![0, 0] a2 slices_S2x1600000_S1x1600000_0_0) shapeCasts_S1x1600000_S1600000

/-- Row `1` of the edge table as a vector: the edges' target rows. -/
def rRow1 (a2 : (⟨S2x1600000, .i32⟩ : BufTy).Contents (Elt F)) : (⟨S1600000, .i32⟩ : BufTy).Contents (Elt F) :=
  shapeCast S1600000 (extractStridedSlice S1x1600000 ![1, 0] a2 slices_S2x1600000_S1x1600000_1_0) shapeCasts_S1x1600000_S1600000

/-- The gather's indices: the source rows, a negative one wrapped around by the number of rows, as a one-column table. -/
def rIdxS (a2 : (⟨S2x1600000, .i32⟩ : BufTy).Contents (Elt F)) : (⟨S1600000x1, .i32⟩ : BufTy).Contents (Elt F) :=
  broadcastInDim S1600000x1 ![0] bcast_S1600000_S1600000x1_0
    (select (cmpi .slt (rRow0 a2) (broadcastInDim S1600000 ![] bcast_S_S1600000 (constantI S_ 32 0#32)))
      (addi (rRow0 a2) (broadcastInDim S1600000 ![] bcast_S_S1600000 (constantI S_ 32 100000#32))) (rRow0 a2))

/-- Each edge's source row of the node features. -/
def rXs (a0 : (⟨S100000x64, .f32⟩ : BufTy).Contents (Elt F)) (a2 : (⟨S2x1600000, .i32⟩ : BufTy).Contents (Elt F)) : (⟨S1600000x64, .f32⟩ : BufTy).Contents (Elt F) :=
  Host.gather gather_S100000x64_S1600000x1_S1600000x64_1_0_n_n_0_1_164 a0 (rIdxS a2)

/-- The first layer before its activation: the gathered rows beside the edge features, times the transposed
    weights, plus the bias on every row. -/
def rH1 (a0 : (⟨S100000x64, .f32⟩ : BufTy).Contents (Elt F)) (a2 : (⟨S2x1600000, .i32⟩ : BufTy).Contents (Elt F)) (a3 : (⟨S1600000x64, .f32⟩ : BufTy).Contents (Elt F)) (a6 : (⟨S128x128, .f32⟩ : BufTy).Contents (Elt F)) (a7 : (⟨S128, .f32⟩ : BufTy).Contents (Elt F)) : (⟨S1600000x128, .f32⟩ : BufTy).Contents (Elt F) :=
  addf (Host.dotGeneral dot_S1600000x128_S128x128_S1600000x128_1_0_0_1_n_n none
      (rCat1 (rXs a0 a2) a3)
      (transpose S128x128 [1, 0] a6 transposes_S128x128_S128x128_1_0))
    (broadcastInDim S1600000x128 ![0, 1] bcast_S1x128_S1600000x128_0_1 (broadcastInDim S1x128 ![1] bcast_S128_S1x128_1 a7))

/-- The first activation: an entry at least zero is kept, any other is multiplied by the slope. -/
def rAct1 (h : (⟨S1600000x128, .f32⟩ : BufTy).Contents (Elt F)) : (⟨S1600000x128, .f32⟩ : BufTy).Contents (Elt F) :=
  select (cmpf .oge h (broadcastInDim S1600000x128 ![] bcast_S_S1600000x128 (constant S_ .f32 0x00000000#32))) h
    (mulf (broadcastInDim S1600000x128 ![] bcast_S_S1600000x128 (id (constant S_ .f32 0x3DCCCCCD#32))) h)

/-- The messages: the activated first layer times the second transposed weights, plus the second bias. -/
def rMsg (a0 : (⟨S100000x64, .f32⟩ : BufTy).Contents (Elt F)) (a2 : (⟨S2x1600000, .i32⟩ : BufTy).Contents (Elt F)) (a3 : (⟨S1600000x64, .f32⟩ : BufTy).Contents (Elt F)) (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F)) : (⟨S1600000x128, .f32⟩ : BufTy).Contents (Elt F) :=
  addf (Host.dotGeneral dot_S1600000x128_S128x128_S1600000x128_1_0_0_1_n_n none (rAct1 (rH1 a0 a2 a3 a6 a7))
      (transpose S128x128 [1, 0] a8 transposes_S128x128_S128x128_1_0))
    (broadcastInDim S1600000x128 ![0, 1] bcast_S1x128_S1600000x128_0_1 (broadcastInDim S1x128 ![1] bcast_S128_S1x128_1 a9))

/-- The scatter's indices: the target rows as a one-column table. -/
def rIdxT (a2 : (⟨S2x1600000, .i32⟩ : BufTy).Contents (Elt F)) : (⟨S1600000x1, .i32⟩ : BufTy).Contents (Elt F) :=
  broadcastInDim S1600000x1 ![0] bcast_S1600000_S1600000x1_0 (rRow1 a2)

/-- The messages summed into their target rows, from zero. -/
def rAgg (a0 : (⟨S100000x64, .f32⟩ : BufTy).Contents (Elt F)) (a2 : (⟨S2x1600000, .i32⟩ : BufTy).Contents (Elt F)) (a3 : (⟨S1600000x64, .f32⟩ : BufTy).Contents (Elt F)) (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (rIdxT a2) (rMsg a0 a2 a3 a6 a7 a8 a9)

/-- The second gather's indices: the batch index of each node, a negative one wrapped around by the table's length,
    as a one-column table. -/
def rIdxB (a5 : (⟨S100000, .i32⟩ : BufTy).Contents (Elt F)) : (⟨S100000x1, .i32⟩ : BufTy).Contents (Elt F) :=
  broadcastInDim S100000x1 ![0] bcast_S100000_S100000x1_0
    (select (cmpi .slt a5 (broadcastInDim S100000 ![] bcast_S_S100000 (constantI S_ 32 0#32)))
      (addi a5 (broadcastInDim S100000 ![] bcast_S_S100000 (constantI S_ 32 64#32))) a5)

/-- Each node's row of the per-batch table. -/
def rUg (a4 : (⟨S64x64, .f32⟩ : BufTy).Contents (Elt F)) (a5 : (⟨S100000, .i32⟩ : BufTy).Contents (Elt F)) : (⟨S100000x64, .f32⟩ : BufTy).Contents (Elt F) :=
  Host.gather gather_S64x64_S100000x1_S100000x64_1_0_n_n_0_1_164 a4 (rIdxB a5)

/-- The third layer before its activation: the second node features, the summed messages and the gathered table
    rows side by side, times the transposed weights, plus the bias. -/
def rH2 (a0 : (⟨S100000x64, .f32⟩ : BufTy).Contents (Elt F)) (a1 : (⟨S100000x64, .f32⟩ : BufTy).Contents (Elt F)) (a2 : (⟨S2x1600000, .i32⟩ : BufTy).Contents (Elt F)) (a3 : (⟨S1600000x64, .f32⟩ : BufTy).Contents (Elt F)) (a4 : (⟨S64x64, .f32⟩ : BufTy).Contents (Elt F)) (a5 : (⟨S100000, .i32⟩ : BufTy).Contents (Elt F)) (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F)) (a10 : (⟨S64x256, .f32⟩ : BufTy).Contents (Elt F)) (a11 : (⟨S64, .f32⟩ : BufTy).Contents (Elt F)) : (⟨S100000x64, .f32⟩ : BufTy).Contents (Elt F) :=
  addf (Host.dotGeneral dot_S100000x256_S256x64_S100000x64_1_0_0_1_n_n none
      (rCat2 a1 (rAgg a0 a2 a3 a6 a7 a8 a9) (rUg a4 a5))
      (transpose S256x64 [1, 0] a10 transposes_S64x256_S256x64_1_0))
    (broadcastInDim S100000x64 ![0, 1] bcast_S1x64_S100000x64_0_1 (broadcastInDim S1x64 ![1] bcast_S64_S1x64_1 a11))

/-- The second activation, as the first at the nodes' shape. -/
def rAct2 (h : (⟨S100000x64, .f32⟩ : BufTy).Contents (Elt F)) : (⟨S100000x64, .f32⟩ : BufTy).Contents (Elt F) :=
  select (cmpf .oge h (broadcastInDim S100000x64 ![] bcast_S_S100000x64 (constant S_ .f32 0x00000000#32))) h
    (mulf (broadcastInDim S100000x64 ![] bcast_S_S100000x64 (id (constant S_ .f32 0x3DCCCCCD#32))) h)

/-- The result: the activated third layer times the last transposed weights, plus the last bias. -/
def rOut (a0 : (⟨S100000x64, .f32⟩ : BufTy).Contents (Elt F)) (a1 : (⟨S100000x64, .f32⟩ : BufTy).Contents (Elt F)) (a2 : (⟨S2x1600000, .i32⟩ : BufTy).Contents (Elt F)) (a3 : (⟨S1600000x64, .f32⟩ : BufTy).Contents (Elt F)) (a4 : (⟨S64x64, .f32⟩ : BufTy).Contents (Elt F)) (a5 : (⟨S100000, .i32⟩ : BufTy).Contents (Elt F)) (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F)) (a10 : (⟨S64x256, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : (⟨S100000x64, .f32⟩ : BufTy).Contents (Elt F) :=
  addf (Host.dotGeneral dot_S100000x64_S64x64_S100000x64_1_0_0_1_n_n none (rAct2 (rH2 a0 a1 a2 a3 a4 a5 a6 a7 a8 a9 a10 a11))
      (transpose S64x64 [1, 0] a12 transposes_S64x64_S64x64_1_0))
    (broadcastInDim S100000x64 ![0, 1] bcast_S1x64_S100000x64_0_1 (broadcastInDim S1x64 ![1] bcast_S64_S1x64_1 a13))

/-! ## The program as a line of operations -/

/-- The program's 64 host operations, in order, the two activation calls written out at their call
    sites over the calls' own buffers: each is a zero, its broadcast, the comparison with it, the slope's
    conversion and broadcast, the product, and the selection between the argument and the product. The two
    concatenations are stated through `rCat1` and `rCat2`. -/
abbrev ops : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v10 main_arg3 main_v11 (rCat1 : (⟨S1600000x64, .f32⟩ : BufTy).Contents (Elt F) → (⟨S1600000x64, .f32⟩ : BufTy).Contents (Elt F) → (⟨S1600000x128, .f32⟩ : BufTy).Contents (Elt F)),
    unary main_arg6 main_v12 ((transpose S128x128 [1, 0] · transposes_S128x128_S128x128_1_0) : (⟨S128x128, .f32⟩ : BufTy).Contents (Elt F) → (⟨S128x128, .f32⟩ : BufTy).Contents (Elt F)),
    binary main_v11 main_v12 main_v13 ((fun l r => Host.dotGeneral dot_S1600000x128_S128x128_S1600000x128_1_0_0_1_n_n none l r) : (⟨S1600000x128, .f32⟩ : BufTy).Contents (Elt F) → (⟨S128x128, .f32⟩ : BufTy).Contents (Elt F) → (⟨S1600000x128, .f32⟩ : BufTy).Contents (Elt F)),
    unary main_arg7 main_v14 (broadcastInDim S1x128 ![1] bcast_S128_S1x128_1 : (⟨S128, .f32⟩ : BufTy).Contents (Elt F) → (⟨S1x128, .f32⟩ : BufTy).Contents (Elt F)),
    unary main_v14 main_v15 (broadcastInDim S1600000x128 ![0, 1] bcast_S1x128_S1600000x128_0_1 : (⟨S1x128, .f32⟩ : BufTy).Contents (Elt F) → (⟨S1600000x128, .f32⟩ : BufTy).Contents (Elt F)),
    binary main_v13 main_v15 main_v16 (addf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x3DCCCCCD#32),
    TRef.nullary main_call0.cst (constant S_ .f32 0x00000000#32),
    TRef.unary main_call0.cst main_call0.v0 (broadcastInDim S1600000x128 ![] bcast_S_S1600000x128),
    TRef.binary (.of main_v16 : TRef sig ⟨S1600000x128, .f32⟩) main_call0.v0 main_call0.v1 (cmpf .oge),
    TRef.unary (.of main_cst : TRef sig ⟨S_, .f32⟩) main_call0.v2 id,
    TRef.unary main_call0.v2 main_call0.v3 (broadcastInDim S1600000x128 ![] bcast_S_S1600000x128),
    TRef.binary main_call0.v3 (.of main_v16 : TRef sig ⟨S1600000x128, .f32⟩) main_call0.v4 mulf,
    TRef.ternary main_call0.v1 (.of main_v16 : TRef sig ⟨S1600000x128, .f32⟩) main_call0.v4 main_call0.call0.v0 select,
    unary main_arg8 main_v18 ((transpose S128x128 [1, 0] · transposes_S128x128_S128x128_1_0) : (⟨S128x128, .f32⟩ : BufTy).Contents (Elt F) → (⟨S128x128, .f32⟩ : BufTy).Contents (Elt F)),
    binary main_v17 main_v18 main_v19 ((fun l r => Host.dotGeneral dot_S1600000x128_S128x128_S1600000x128_1_0_0_1_n_n none l r) : (⟨S1600000x128, .f32⟩ : BufTy).Contents (Elt F) → (⟨S128x128, .f32⟩ : BufTy).Contents (Elt F) → (⟨S1600000x128, .f32⟩ : BufTy).Contents (Elt F)),
    unary main_arg9 main_v20 (broadcastInDim S1x128 ![1] bcast_S128_S1x128_1 : (⟨S128, .f32⟩ : BufTy).Contents (Elt F) → (⟨S1x128, .f32⟩ : BufTy).Contents (Elt F)),
    unary main_v20 main_v21 (broadcastInDim S1600000x128 ![0, 1] bcast_S1x128_S1600000x128_0_1 : (⟨S1x128, .f32⟩ : BufTy).Contents (Elt F) → (⟨S1600000x128, .f32⟩ : BufTy).Contents (Elt F)),
    binary main_v19 main_v21 main_v22 (addf : (⟨S1600000x128, .f32⟩ : BufTy).Contents (Elt F) → (⟨S1600000x128, .f32⟩ : BufTy).Contents (Elt F) → (⟨S1600000x128, .f32⟩ : BufTy).Contents (Elt F)),
    nullary main_cst_1 (constant S_ .f32 0x00000000#32),
    unary main_cst_1 main_v23 (broadcastInDim S100000x128 ![] bcast_S_S100000x128 : (⟨S_, .f32⟩ : BufTy).Contents (Elt F) → (⟨S100000x128, .f32⟩ : BufTy).Contents (Elt F)),
    unary main_v3 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_c_2 (constantI S_ 32 0#32),
    unary main_c_2 main_v26 (broadcastInDim S100000 ![] bcast_S_S100000 : (⟨S_, .i32⟩ : BufTy).Contents (Elt F) → (⟨S100000, .i32⟩ : BufTy).Contents (Elt F)),
    binary main_arg5 main_v26 main_v27 (cmpi .slt : (⟨S100000, .i32⟩ : BufTy).Contents (Elt F) → (⟨S100000, .i32⟩ : BufTy).Contents (Elt F) → (⟨S100000, .i1⟩ : BufTy).Contents (Elt F)),
    nullary main_c_3 (constantI S_ 32 64#32),
    unary main_c_3 main_v28 (broadcastInDim S100000 ![] bcast_S_S100000 : (⟨S_, .i32⟩ : BufTy).Contents (Elt F) → (⟨S100000, .i32⟩ : BufTy).Contents (Elt F)),
    binary main_arg5 main_v28 main_v29 (addi : (⟨S100000, .i32⟩ : BufTy).Contents (Elt F) → (⟨S100000, .i32⟩ : BufTy).Contents (Elt F) → (⟨S100000, .i32⟩ : BufTy).Contents (Elt F)),
    ternary main_v27 main_v29 main_arg5 main_v30 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v30 main_v31 (broadcastInDim S100000x1 ![0] bcast_S100000_S100000x1_0 : (⟨S100000, .i32⟩ : BufTy).Contents (Elt F) → (⟨S100000x1, .i32⟩ : BufTy).Contents (Elt F)),
    binary main_arg4 main_v31 main_v32 ((fun x i => Host.gather gather_S64x64_S100000x1_S100000x64_1_0_n_n_0_1_164 x i) : (⟨S64x64, .f32⟩ : BufTy).Contents (Elt F) → (⟨S100000x1, .i32⟩ : BufTy).Contents (Elt F) → (⟨S100000x64, .f32⟩ : BufTy).Contents (Elt F)),
    nary ![main_arg1, main_v25, main_v32] main_v33 (fun u => rCat2 (u 0) (u 1) (u 2)),
    unary main_arg10 main_v34 ((transpose S256x64 [1, 0] · transposes_S64x256_S256x64_1_0) : (⟨S64x256, .f32⟩ : BufTy).Contents (Elt F) → (⟨S256x64, .f32⟩ : BufTy).Contents (Elt F)),
    binary main_v33 main_v34 main_v35 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg11 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v35 main_v37 main_v38 (addf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3DCCCCCD#32),
    TRef.nullary main_call1.cst (constant S_ .f32 0x00000000#32),
    TRef.unary main_call1.cst main_call1.v0 (broadcastInDim S100000x64 ![] bcast_S_S100000x64),
    TRef.binary (.of main_v38 : TRef sig ⟨S100000x64, .f32⟩) main_call1.v0 main_call1.v1 (cmpf .oge),
    TRef.unary (.of main_cst_4 : TRef sig ⟨S_, .f32⟩) main_call1.v2 id,
    TRef.unary main_call1.v2 main_call1.v3 (broadcastInDim S100000x64 ![] bcast_S_S100000x64),
    TRef.binary main_call1.v3 (.of main_v38 : TRef sig ⟨S100000x64, .f32⟩) main_call1.v4 mulf,
    TRef.ternary main_call1.v1 (.of main_v38 : TRef sig ⟨S100000x64, .f32⟩) main_call1.v4 main_call1.call0.v0 select,
    unary main_arg12 main_v40 ((transpose S64x64 [1, 0] · transposes_S64x64_S64x64_1_0) : (⟨S64x64, .f32⟩ : BufTy).Contents (Elt F) → (⟨S64x64, .f32⟩ : BufTy).Contents (Elt F)),
    binary main_v39 main_v40 main_v41 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v42 (broadcastInDim S1x64 ![1] bcast_S64_S1x64_1 : (⟨S64, .f32⟩ : BufTy).Contents (Elt F) → (⟨S1x64, .f32⟩ : BufTy).Contents (Elt F)),
    unary main_v42 main_v43 (broadcastInDim S100000x64 ![0, 1] bcast_S1x64_S100000x64_0_1 : (⟨S1x64, .f32⟩ : BufTy).Contents (Elt F) → (⟨S100000x64, .f32⟩ : BufTy).Contents (Elt F)),
    binary main_v41 main_v43 main_v44 (addf : (⟨S100000x64, .f32⟩ : BufTy).Contents (Elt F) → (⟨S100000x64, .f32⟩ : BufTy).Contents (Elt F) → (⟨S100000x64, .f32⟩ : BufTy).Contents (Elt F)) ]

/-- The program is that straight line. Sequencing computes on a step followed by a continuation, so the called
    functions' bodies, unfolded at their calls, re-associate into the one chain by computation alone. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub ..⟩

/-! ## Reading the line back -/

/-- The three-operand concatenation leaves at its result the three operands' contents side by side, each read at
    its own reference. -/
theorem cat3_result' (V : Valuation τ sig (Elt F)) :
    (nary ![main_arg1, main_v25, main_v32] main_v33 (fun u => rCat2 (u 0) (u 1) (u 2)) : HloOp τ sig (Elt F)).result V (no_index (Proc.devRef .tc main_v33))
      = rCat2 (V (Proc.devRef .tc main_arg1)) (V (Proc.devRef .tc main_v25)) (V (Proc.devRef .tc main_v32)) := by
  rw [nary_result]; rfl

/-- The fold of the operations read at one reference, as one rewriting pass: each operation's result at its own
    reference is its function of its operands' contents, at any other reference what was there. -/
macro "ref_results" : tactic =>
  `(tactic| (simp (disch := decide) only [after_cons, after_nil,
      nullary_result', unary_result', binary_result', ternary_result', reshape_result', cat3_result',
      nullary_result_ne', unary_result_ne', binary_result_ne', ternary_result_ne', reshape_result_ne', nary_result_ne']))

/-- The result buffer after the line holds the last stage of the arguments' contents: the fold read back operation
    by operation is, stage by stage, the composition the definitions above name. -/
theorem out_eq (V : Valuation τ sig (Elt F)) :
    after ops V (main_v44 : DevRef τ sig) = rOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  ref_results
  rfl

/-! No operation of the line writes an argument: each keeps its contents. -/
theorem arg0_eq (V : Valuation τ sig (Elt F)) :
    after ops V (main_arg0 : DevRef τ sig) = V (main_arg0 : DevRef τ sig) := by ref_results
theorem arg1_eq (V : Valuation τ sig (Elt F)) :
    after ops V (main_arg1 : DevRef τ sig) = V (main_arg1 : DevRef τ sig) := by ref_results
theorem arg2_eq (V : Valuation τ sig (Elt F)) :
    after ops V (main_arg2 : DevRef τ sig) = V (main_arg2 : DevRef τ sig) := by ref_results
theorem arg3_eq (V : Valuation τ sig (Elt F)) :
    after ops V (main_arg3 : DevRef τ sig) = V (main_arg3 : DevRef τ sig) := by ref_results
theorem arg4_eq (V : Valuation τ sig (Elt F)) :
    after ops V (main_arg4 : DevRef τ sig) = V (main_arg4 : DevRef τ sig) := by ref_results
theorem arg5_eq (V : Valuation τ sig (Elt F)) :
    after ops V (main_arg5 : DevRef τ sig) = V (main_arg5 : DevRef τ sig) := by ref_results
theorem arg6_eq (V : Valuation τ sig (Elt F)) :
    after ops V (main_arg6 : DevRef τ sig) = V (main_arg6 : DevRef τ sig) := by ref_results
theorem arg7_eq (V : Valuation τ sig (Elt F)) :
    after ops V (main_arg7 : DevRef τ sig) = V (main_arg7 : DevRef τ sig) := by ref_results
theorem arg8_eq (V : Valuation τ sig (Elt F)) :
    after ops V (main_arg8 : DevRef τ sig) = V (main_arg8 : DevRef τ sig) := by ref_results
theorem arg9_eq (V : Valuation τ sig (Elt F)) :
    after ops V (main_arg9 : DevRef τ sig) = V (main_arg9 : DevRef τ sig) := by ref_results
theorem arg10_eq (V : Valuation τ sig (Elt F)) :
    after ops V (main_arg10 : DevRef τ sig) = V (main_arg10 : DevRef τ sig) := by ref_results
theorem arg11_eq (V : Valuation τ sig (Elt F)) :
    after ops V (main_arg11 : DevRef τ sig) = V (main_arg11 : DevRef τ sig) := by ref_results
theorem arg12_eq (V : Valuation τ sig (Elt F)) :
    after ops V (main_arg12 : DevRef τ sig) = V (main_arg12 : DevRef τ sig) := by ref_results
theorem arg13_eq (V : Valuation τ sig (Elt F)) :
    after ops V (main_arg13 : DevRef τ sig) = V (main_arg13 : DevRef τ sig) := by ref_results

/-! ## The run -/

/-- On every device, for any float values, from any memory with zero counters: every weakly fair execution of the
    program terminates, and every final state has each buffer at the operations' fold over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- On every device, for any float values, from any memory with zero counters: every weakly fair execution of the
    program terminates with the result at `rOut` of the fourteen arguments' launch contents (in order) and every
    argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v44) = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v44).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_fold m ρ)

end Cert.ReferenceIdeal.RefRun

end
-- ==== Proof.BlocksToArray.lean ====
import proofs.«142320_j24756191494620_2_alg».proof.Proof.Gen.KernelIdeal.Frame
import Idealize.ShloMosaic.Lib.Pipeline.Value
import Idealize.ShloMosaic.Lib.ValueIdx

/-!
# From blocks to whole arrays

Each of the two kernel calls walks a one-axis grid. At grid point `t` the row-blocked operands are staged as the rows
`B t … B t + B - 1` of their arrays (`B = 8000` over 200 points for the edge call, `B = 5000` over 20 points for the node
call), the small operands (weights and biases) are staged whole at every point, and the body's result block is written
back to rows `B t … B t + B - 1` of the output array.

Here, for any contents `V` of the buffers when the call is entered:
* the block index of every window at every grid point (`idx0`, `idx0s`, `idx1`, `idx1s`), decided once over the grid;
* every input block read as its array at the rows it covers (`iblk0_w`, `iblk1_w`);
* the place of an output block's element in the output array (`emb0_7`, `emb1_9`);
* the output blocks cover the output array — row `n` lies in the block of point `n / B` (`covered0`, `covered1`);
* hence (`arrAt0`, `arrAt1`): if the body's result at element `(r, k)` of block `t` is ONE whole-array function `G` of
  the operand arrays read at `(B t + r, k)`, the output array ends holding `G` of the operand arrays.
What `G` is — the body's arithmetic — is the hypothesis `hG`, proved elsewhere.
-/

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! # The edge kernel's call: 200 grid points, 8000 rows of the 1,600,000 per point -/

/-- The block index of every window at every grid point, decided over the 200 points: the two row-blocked inputs
    and the output sit at block row `t`, column block 0; the five small operands at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

theorem idx0s : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A grid point's number is below 200. -/
theorem lt0 (t : Fin cfg0.N) : t.val < 200 := lt_of_lt_of_eq t.isLt N_0

/-- Row `r` of the block at point `t` is row `8000 t + r` of the whole array. -/
def row0 (t : Fin cfg0.N) (r : Fin 8000) : Fin 1600000 :=
  ⟨8000 * t.val + r.val, by have h := lt0 t; omega⟩

theorem row0_val (t : Fin cfg0.N) (r : Fin 8000) : (row0 t r).val = 8000 * t.val + r.val := rfl

/-! ## Each input block, read where it lies in its array -/

/-- The first row-blocked input's block at point `t`: rows `8000 t … 8000 t + 7999` of its array. -/
theorem iblk0_0 (c : Dev nD) (t : Fin cfg0.N) (r : Fin 8000) (k : Fin 64) :
    (iblk0 V c 0 t : Vec Ideal S8000x64 .f32) (ix2 r k) = (V c main_v10 : Vec Ideal S1600000x64 .f32) (ix2 (row0 t r) k) := by
  obtain ⟨e0, e1, -, -, -, -⟩ := idx0 t
  unfold iblk0
  rw [View.read_apply]
  show V c main_v10 (((cfg0.win 0).blk t).view.emb (ix2 r k)) = V c main_v10 (ix2 (row0 t r) k)
  congr 1
  funext a
  apply Fin.ext
  match a with
  | ⟨0, _⟩ => show win0_0.index t (0 : Fin 2) * 8000 + 1 * r.val = 8000 * t.val + r.val; omega
  | ⟨1, _⟩ => show win0_0.index t (1 : Fin 2) * 64 + 1 * k.val = k.val; omega

/-- The second row-blocked input's block at point `t`: rows `8000 t … 8000 t + 7999` of its array. -/
theorem iblk0_1 (c : Dev nD) (t : Fin cfg0.N) (r : Fin 8000) (k : Fin 64) :
    (iblk0 V c 1 t : Vec Ideal S8000x64 .f32) (ix2 r k) = (V c main_arg3 : Vec Ideal S1600000x64 .f32) (ix2 (row0 t r) k) := by
  obtain ⟨-, -, e0, e1, -, -⟩ := idx0 t
  unfold iblk0
  rw [View.read_apply]
  show V c main_arg3 (((cfg0.win 1).blk t).view.emb (ix2 r k)) = V c main_arg3 (ix2 (row0 t r) k)
  congr 1
  funext a
  apply Fin.ext
  match a with
  | ⟨0, _⟩ => show win0_1.index t (0 : Fin 2) * 8000 + 1 * r.val = 8000 * t.val + r.val; omega
  | ⟨1, _⟩ => show win0_1.index t (1 : Fin 2) * 64 + 1 * k.val = k.val; omega

/-- Window 2's block is its whole array at every point. -/
theorem iblk0_2 (c : Dev nD) (t : Fin cfg0.N) :
    (iblk0 V c 2 t : Vec Ideal S64x128 .f32) = (V c main_v12 : Vec Ideal S64x128 .f32) := by
  obtain ⟨e0, e1, -, -, -, -, -, -, -, -⟩ := idx0s t
  funext y
  unfold iblk0
  rw [View.read_apply]
  show V c main_v12 (((cfg0.win 2).blk t).view.emb y) = V c main_v12 y
  congr 1
  funext a
  apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- Window 3's block is its whole array at every point. -/
theorem iblk0_3 (c : Dev nD) (t : Fin cfg0.N) :
    (iblk0 V c 3 t : Vec Ideal S64x128 .f32) = (V c main_v13 : Vec Ideal S64x128 .f32) := by
  obtain ⟨-, -, e0, e1, -, -, -, -, -, -⟩ := idx0s t
  funext y
  unfold iblk0
  rw [View.read_apply]
  show V c main_v13 (((cfg0.win 3).blk t).view.emb y) = V c main_v13 y
  congr 1
  funext a
  apply Fin.ext
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- Window 4's block is its whole array at every point. -/
theorem iblk0_4 (c : Dev nD) (t : Fin cfg0.N) :
    (iblk0 V c 4 t : Vec Ideal S1x128 .f32) = (V c main_v15 : Vec Ideal S1x128 .f32) := by
  obtain ⟨-, -, -, -, e0, e1, -, -, -, -⟩ := idx0s t
  funext y
  unfold iblk0
  rw [View.read_apply]
  show V c main_v15 (((cfg0.win 4).blk t).view.emb y) = V c main_v15 y
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem iblk0_5 (c : Dev nD) (t : Fin cfg0.N) :
    (iblk0 V c 5 t : Vec Ideal S128x128 .f32) = (V c main_v14 : Vec Ideal S128x128 .f32) := by
  obtain ⟨-, -, -, -, -, -, e0, e1, -, -⟩ := idx0s t
  funext y
  unfold iblk0
  rw [View.read_apply]
  show V c main_v14 (((cfg0.win 5).blk t).view.emb y) = V c main_v14 y
  congr 1
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every point. -/
theorem iblk0_6 (c : Dev nD) (t : Fin cfg0.N) :
    (iblk0 V c 6 t : Vec Ideal S1x128 .f32) = (V c main_v16 : Vec Ideal S1x128 .f32) := by
  obtain ⟨-, -, -, -, -, -, -, -, e0, e1⟩ := idx0s t
  funext y
  unfold iblk0
  rw [View.read_apply]
  show V c main_v16 (((cfg0.win 6).blk t).view.emb y) = V c main_v16 y
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## The output block, where it lies in its array -/

/-- The element `(r, k)` of the output block at point `t` is the element `(8000 t + r, k)` of the output array. -/
theorem emb0_7 (t : Fin cfg0.N) (r : Fin 8000) (k : Fin 128) :
    (((cfg0.win 7).blk t).view.emb (ix2 r k) : S1600000x128.Idx) = ix2 (row0 t r) k := by
  obtain ⟨-, -, -, -, e0, e1⟩ := idx0 t
  funext a
  apply Fin.ext
  match a with
  | ⟨0, _⟩ => show win0_7.index t (0 : Fin 2) * 8000 + 1 * r.val = 8000 * t.val + r.val; omega
  | ⟨1, _⟩ => show win0_7.index t (1 : Fin 2) * 128 + 1 * k.val = k.val; omega

/-- An index of the output array is in point `t`'s block iff each coordinate is in the block's range on its axis. -/
theorem mem_blk0_7 (t : Fin cfg0.N) (i : S1600000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v17).slice (win0_7.rect t)).set ↔ _
  rw [View.set_slice_whole, Rect.mem_set_unit]
  exact Iff.rfl

/-- Every row of the output array lies in some point's block: row `n` in the block of point `n / 8000`. -/
theorem covered0 (i : S1600000x128.Idx) :
    ∃ t : Fin cfg0.N, (cfg0.win 7).flush t = true ∧ i ∈ ((cfg0.win 7).blk t).view.set := by
  have hi0 : (i 0).val < 1600000 := (i 0).isLt
  have hi1 : (i 1).val < 128 := (i 1).isLt
  obtain ⟨t, ht⟩ : ∃ t : Fin cfg0.N, t.val = (i 0).val / 8000 :=
    ⟨⟨(i 0).val / 8000, by rw [show cfg0.N = 200 from N_0]; omega⟩, rfl⟩
  obtain ⟨-, -, -, -, e0, e1⟩ := idx0 t
  refine ⟨t, flush0_7 t, ?_⟩
  rw [mem_blk0_7]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 128 ≤ (i 1).val ∧ (i 1).val < win0_7.index t (1 : Fin 2) * 128 + 128; omega

/-! ## The output array after the call -/

/-- If the body's result at every element `(r, k)` of every block `t` is ONE whole-array function `G` of the seven
    operand arrays, read at the element's place `(8000 t + r, k)` in the output array, then the output array ends
    holding `G` of the operand arrays: every point writes its block of `G`, and the 200 blocks cover the array. -/
theorem arrAt0 (c : Dev nD)
    (G : Vec Ideal S1600000x64 .f32 → Vec Ideal S1600000x64 .f32 → Vec Ideal S64x128 .f32 → Vec Ideal S64x128 .f32 →
      Vec Ideal S1x128 .f32 → Vec Ideal S128x128 .f32 → Vec Ideal S1x128 .f32 → Vec Ideal S1600000x128 .f32)
    (hG : ∀ (t : Fin cfg0.N) (r : Fin 8000) (k : Fin 128),
      out0_7 (iblk0 V c 0 t) (iblk0 V c 1 t) (iblk0 V c 2 t) (iblk0 V c 3 t) (iblk0 V c 4 t) (iblk0 V c 5 t) (iblk0 V c 6 t) (ix2 r k)
        = G (V c main_v10) (V c main_arg3) (V c main_v12) (V c main_v13) (V c main_v15) (V c main_v14) (V c main_v16) (ix2 (row0 t r) k)) :
    (dat0 V c).arrAt 7 cfg0.N = G (V c main_v10) (V c main_arg3) (V c main_v12) (V c main_v13) (V c main_v15) (V c main_v14) (V c main_v16) := by
  refine (dat0 V c).arrAt_eq_of_cover 7 (G (V c main_v10) (V c main_arg3) (V c main_v12) (V c main_v13) (V c main_v15) (V c main_v14) (V c main_v16)) (fun t _ => ?_) covered0
  show (cfg0.win 7).cut (grid0.coords t) ((dat0 V c).after 7 t) = _
  rw [after0_7]
  refine funext fun (y : S8000x128.Idx) => ?_
  show _ = G _ _ _ _ _ _ _ (((cfg0.win 7).blk t).view.emb y)
  obtain ⟨r, k, rfl⟩ : ∃ (r : Fin 8000) (k : Fin 128), y = ix2 r k := ⟨y 0, y 1, eq_ix2 y⟩
  rw [emb0_7]
  exact hG t r k

/-- The same, with the element's place in the output array named through the block itself. -/
theorem arrAt0_emb (c : Dev nD)
    (G : Vec Ideal S1600000x64 .f32 → Vec Ideal S1600000x64 .f32 → Vec Ideal S64x128 .f32 → Vec Ideal S64x128 .f32 →
      Vec Ideal S1x128 .f32 → Vec Ideal S128x128 .f32 → Vec Ideal S1x128 .f32 → Vec Ideal S1600000x128 .f32)
    (hG : ∀ (t : Fin cfg0.N) (y : S8000x128.Idx),
      out0_7 (iblk0 V c 0 t) (iblk0 V c 1 t) (iblk0 V c 2 t) (iblk0 V c 3 t) (iblk0 V c 4 t) (iblk0 V c 5 t) (iblk0 V c 6 t) y
        = G (V c main_v10) (V c main_arg3) (V c main_v12) (V c main_v13) (V c main_v15) (V c main_v14) (V c main_v16)
            (((cfg0.win 7).blk t).view.emb y)) :
    (dat0 V c).arrAt 7 cfg0.N = G (V c main_v10) (V c main_arg3) (V c main_v12) (V c main_v13) (V c main_v15) (V c main_v14) (V c main_v16) :=
  arrAt0 V c G fun t r k => by rw [← emb0_7]; exact hG t (ix2 r k)

/-! # The node kernel's call: 20 grid points, 5000 rows of the 100,000 per point -/

/-- The block index of every window at every grid point, decided over the 20 points: the three row-blocked inputs
    and the output sit at block row `t`, column block 0; the six small operands at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

theorem idx1s : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- A grid point's number is below 20. -/
theorem lt1 (t : Fin cfg1.N) : t.val < 20 := lt_of_lt_of_eq t.isLt N_1

/-- Row `r` of the block at point `t` is row `5000 t + r` of the whole array. -/
def row1 (t : Fin cfg1.N) (r : Fin 5000) : Fin 100000 :=
  ⟨5000 * t.val + r.val, by have h := lt1 t; omega⟩

theorem row1_val (t : Fin cfg1.N) (r : Fin 5000) : (row1 t r).val = 5000 * t.val + r.val := rfl

/-! ## Each input block, read where it lies in its array -/

/-- The first row-blocked input's block at point `t`: rows `5000 t … 5000 t + 4999` of its array. -/
theorem iblk1_0 (c : Dev nD) (t : Fin cfg1.N) (r : Fin 5000) (k : Fin 64) :
    (iblk1 V c 0 t : Vec Ideal S5000x64 .f32) (ix2 r k) = (V c main_arg1 : Vec Ideal S100000x64 .f32) (ix2 (row1 t r) k) := by
  obtain ⟨e0, e1, -, -, -, -, -, -⟩ := idx1 t
  unfold iblk1
  rw [View.read_apply]
  show V c main_arg1 (((cfg1.win 0).blk t).view.emb (ix2 r k)) = V c main_arg1 (ix2 (row1 t r) k)
  congr 1
  funext a
  apply Fin.ext
  match a with
  | ⟨0, _⟩ => show win1_0.index t (0 : Fin 2) * 5000 + 1 * r.val = 5000 * t.val + r.val; omega
  | ⟨1, _⟩ => show win1_0.index t (1 : Fin 2) * 64 + 1 * k.val = k.val; omega

/-- The second row-blocked input's block at point `t`: rows `5000 t … 5000 t + 4999` of its array. -/
theorem iblk1_1 (c : Dev nD) (t : Fin cfg1.N) (r : Fin 5000) (k : Fin 128) :
    (iblk1 V c 1 t : Vec Ideal S5000x128 .f32) (ix2 r k) = (V c main_v20 : Vec Ideal S100000x128 .f32) (ix2 (row1 t r) k) := by
  obtain ⟨-, -, e0, e1, -, -, -, -⟩ := idx1 t
  unfold iblk1
  rw [View.read_apply]
  show V c main_v20 (((cfg1.win 1).blk t).view.emb (ix2 r k)) = V c main_v20 (ix2 (row1 t r) k)
  congr 1
  funext a
  apply Fin.ext
  match a with
  | ⟨0, _⟩ => show win1_1.index t (0 : Fin 2) * 5000 + 1 * r.val = 5000 * t.val + r.val; omega
  | ⟨1, _⟩ => show win1_1.index t (1 : Fin 2) * 128 + 1 * k.val = k.val; omega

/-- The third row-blocked input's block at point `t`: rows `5000 t … 5000 t + 4999` of its array. -/
theorem iblk1_2 (c : Dev nD) (t : Fin cfg1.N) (r : Fin 5000) (k : Fin 64) :
    (iblk1 V c 2 t : Vec Ideal S5000x64 .f32) (ix2 r k) = (V c main_v27 : Vec Ideal S100000x64 .f32) (ix2 (row1 t r) k) := by
  obtain ⟨-, -, -, -, e0, e1, -, -⟩ := idx1 t
  unfold iblk1
  rw [View.read_apply]
  show V c main_v27 (((cfg1.win 2).blk t).view.emb (ix2 r k)) = V c main_v27 (ix2 (row1 t r) k)
  congr 1
  funext a
  apply Fin.ext
  match a with
  | ⟨0, _⟩ => show win1_2.index t (0 : Fin 2) * 5000 + 1 * r.val = 5000 * t.val + r.val; omega
  | ⟨1, _⟩ => show win1_2.index t (1 : Fin 2) * 64 + 1 * k.val = k.val; omega

/-- Window 3's block is its whole array at every point. -/
theorem iblk1_3 (c : Dev nD) (t : Fin cfg1.N) :
    (iblk1 V c 3 t : Vec Ideal S64x64 .f32) = (V c main_v29 : Vec Ideal S64x64 .f32) := by
  obtain ⟨e0, e1, -, -, -, -, -, -, -, -, -, -⟩ := idx1s t
  funext y
  unfold iblk1
  rw [View.read_apply]
  show V c main_v29 (((cfg1.win 3).blk t).view.emb y) = V c main_v29 y
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block is its whole array at every point. -/
theorem iblk1_4 (c : Dev nD) (t : Fin cfg1.N) :
    (iblk1 V c 4 t : Vec Ideal S128x64 .f32) = (V c main_v30 : Vec Ideal S128x64 .f32) := by
  obtain ⟨-, -, e0, e1, -, -, -, -, -, -, -, -⟩ := idx1s t
  funext y
  unfold iblk1
  rw [View.read_apply]
  show V c main_v30 (((cfg1.win 4).blk t).view.emb y) = V c main_v30 y
  congr 1
  funext a
  apply Fin.ext
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- Window 5's block is its whole array at every point. -/
theorem iblk1_5 (c : Dev nD) (t : Fin cfg1.N) :
    (iblk1 V c 5 t : Vec Ideal S64x64 .f32) = (V c main_v31 : Vec Ideal S64x64 .f32) := by
  obtain ⟨-, -, -, -, e0, e1, -, -, -, -, -, -⟩ := idx1s t
  funext y
  unfold iblk1
  rw [View.read_apply]
  show V c main_v31 (((cfg1.win 5).blk t).view.emb y) = V c main_v31 y
  congr 1
  funext a
  apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block is its whole array at every point. -/
theorem iblk1_6 (c : Dev nD) (t : Fin cfg1.N) :
    (iblk1 V c 6 t : Vec Ideal S1x64 .f32) = (V c main_v33 : Vec Ideal S1x64 .f32) := by
  obtain ⟨-, -, -, -, -, -, e0, e1, -, -, -, -⟩ := idx1s t
  funext y
  unfold iblk1
  rw [View.read_apply]
  show V c main_v33 (((cfg1.win 6).blk t).view.emb y) = V c main_v33 y
  congr 1
  funext a
  apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Window 7's block is its whole array at every point. -/
theorem iblk1_7 (c : Dev nD) (t : Fin cfg1.N) :
    (iblk1 V c 7 t : Vec Ideal S64x64 .f32) = (V c main_v32 : Vec Ideal S64x64 .f32) := by
  obtain ⟨-, -, -, -, -, -, -, -, e0, e1, -, -⟩ := idx1s t
  funext y
  unfold iblk1
  rw [View.read_apply]
  show V c main_v32 (((cfg1.win 7).blk t).view.emb y) = V c main_v32 y
  congr 1
  funext a
  apply Fin.ext
  match a with
  | ⟨0, _⟩ => show win1_7.index t (0 : Fin 2) * 64 + 1 * (y 0).val = (y 0).val; omega
  | ⟨1, _⟩ => show win1_7.index t (1 : Fin 2) * 64 + 1 * (y 1).val = (y 1).val; omega

/-- Window 8's block is its whole array at every point. -/
theorem iblk1_8 (c : Dev nD) (t : Fin cfg1.N) :
    (iblk1 V c 8 t : Vec Ideal S1x64 .f32) = (V c main_v34 : Vec Ideal S1x64 .f32) := by
  obtain ⟨-, -, -, -, -, -, -, -, -, -, e0, e1⟩ := idx1s t
  funext y
  unfold iblk1
  rw [View.read_apply]
  show V c main_v34 (((cfg1.win 8).blk t).view.emb y) = V c main_v34 y
  congr 1
  funext a
  apply Fin.ext
  match a with
  | ⟨0, _⟩ => show win1_8.index t (0 : Fin 2) * 1 + 1 * (y 0).val = (y 0).val; omega
  | ⟨1, _⟩ => show win1_8.index t (1 : Fin 2) * 64 + 1 * (y 1).val = (y 1).val; omega

/-! ## The output block, where it lies in its array -/

/-- The element `(r, k)` of the output block at point `t` is the element `(5000 t + r, k)` of the output array. -/
theorem emb1_9 (t : Fin cfg1.N) (r : Fin 5000) (k : Fin 64) :
    (((cfg1.win 9).blk t).view.emb (ix2 r k) : S100000x64.Idx) = ix2 (row1 t r) k := by
  obtain ⟨-, -, -, -, -, -, e0, e1⟩ := idx1 t
  funext a
  apply Fin.ext
  match a with
  | ⟨0, _⟩ => show win1_9.index t (0 : Fin 2) * 5000 + 1 * r.val = 5000 * t.val + r.val; omega
  | ⟨1, _⟩ => show win1_9.index t (1 : Fin 2) * 64 + 1 * k.val = k.val; omega

/-- An index of the output array is in point `t`'s block iff each coordinate is in the block's range on its axis. -/
theorem mem_blk1_9 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v35).slice (win1_9.rect t)).set ↔ _
  rw [View.set_slice_whole, Rect.mem_set_unit]
  exact Iff.rfl

/-- Every row of the output array lies in some point's block: row `n` in the block of point `n / 5000`. -/
theorem covered1 (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := idx1 t
  refine ⟨t, flush1_9 t, ?_⟩
  rw [mem_blk1_9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-! ## The output array after the call -/

/-- If the body's result at every element `(r, k)` of every block `t` is ONE whole-array function `G` of the nine
    operand arrays, read at the element's place `(5000 t + r, k)` in the output array, then the output array ends
    holding `G` of the operand arrays: every point writes its block of `G`, and the 20 blocks cover the array. -/
theorem arrAt1 (c : Dev nD)
    (G : Vec Ideal S100000x64 .f32 → Vec Ideal S100000x128 .f32 → Vec Ideal S100000x64 .f32 → Vec Ideal S64x64 .f32 →
      Vec Ideal S128x64 .f32 → Vec Ideal S64x64 .f32 → Vec Ideal S1x64 .f32 → Vec Ideal S64x64 .f32 → Vec Ideal S1x64 .f32 →
      Vec Ideal S100000x64 .f32)
    (hG : ∀ (t : Fin cfg1.N) (r : Fin 5000) (k : Fin 64),
      out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 r k)
        = G (V c main_arg1) (V c main_v20) (V c main_v27) (V c main_v29) (V c main_v30) (V c main_v31) (V c main_v33) (V c main_v32) (V c main_v34) (ix2 (row1 t r) k)) :
    (dat1 V c).arrAt 9 cfg1.N = G (V c main_arg1) (V c main_v20) (V c main_v27) (V c main_v29) (V c main_v30) (V c main_v31) (V c main_v33) (V c main_v32) (V c main_v34) := by
  refine (dat1 V c).arrAt_eq_of_cover 9 (G (V c main_arg1) (V c main_v20) (V c main_v27) (V c main_v29) (V c main_v30) (V c main_v31) (V c main_v33) (V c main_v32) (V c main_v34)) (fun t _ => ?_) covered1
  show (cfg1.win 9).cut (grid1.coords t) ((dat1 V c).after 9 t) = _
  rw [after1_9]
  refine funext fun (y : S5000x64.Idx) => ?_
  show _ = G _ _ _ _ _ _ _ _ _ (((cfg1.win 9).blk t).view.emb y)
  obtain ⟨r, k, rfl⟩ : ∃ (r : Fin 5000) (k : Fin 64), y = ix2 r k := ⟨y 0, y 1, eq_ix2 y⟩
  rw [emb1_9]
  exact hG t r k

/-- The same, with the element's place in the output array named through the block itself. -/
theorem arrAt1_emb (c : Dev nD)
    (G : Vec Ideal S100000x64 .f32 → Vec Ideal S100000x128 .f32 → Vec Ideal S100000x64 .f32 → Vec Ideal S64x64 .f32 →
      Vec Ideal S128x64 .f32 → Vec Ideal S64x64 .f32 → Vec Ideal S1x64 .f32 → Vec Ideal S64x64 .f32 → Vec Ideal S1x64 .f32 →
      Vec Ideal S100000x64 .f32)
    (hG : ∀ (t : Fin cfg1.N) (y : S5000x64.Idx),
      out1_9 (iblk1 V c 0 t) (iblk1 V c 1 t) (iblk1 V c 2 t) (iblk1 V c 3 t) (iblk1 V c 4 t) (iblk1 V c 5 t) (iblk1 V c 6 t) (iblk1 V c 7 t) (iblk1 V c 8 t) y
        = G (V c main_arg1) (V c main_v20) (V c main_v27) (V c main_v29) (V c main_v30) (V c main_v31) (V c main_v33) (V c main_v32) (V c main_v34)
            (((cfg1.win 9).blk t).view.emb y)) :
    (dat1 V c).arrAt 9 cfg1.N = G (V c main_arg1) (V c main_v20) (V c main_v27) (V c main_v29) (V c main_v30) (V c main_v31) (V c main_v33) (V c main_v32) (V c main_v34) :=
  arrAt1 V c G fun t r k => by rw [← emb1_9]; exact hG t (ix2 r k)

end Cert.KernelIdeal.Blocks

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Spec.lean ====
/-
  The two dense stages of the message-passing layer as scalar formulas at one entry, over the extended reals.
  `leaky` is the leaky rectifier with slope 0.1 (as the single-precision word both programs carry).
  `edgeK` is an edge message at (edge e, feature o) from the two 64-wide inputs, the two halves of the first weight
  matrix, and the second weight matrix, each already laid out contraction-first; `nodeK` is a node's output at
  (node e, feature o) from the three inputs of widths 64, 128, 64 and the three blocks of the first weight matrix.
  `edgeSpec` / `nodeSpec` are the same formulas over the weights as given (output-first).
-/
import Idealize.ShloMosaic.PureOps.Ideal
import Idealize.ShloMosaic.Lib.ValueIdx

noncomputable section

namespace Cert.Spec

open Idealize.ShloMosaic Idealize.ShloMosaic.ValueIdx

/-- x ↦ x if x ≥ 0 else 0.1 · x, on the extended reals. -/
def leaky (x : EReal) : EReal :=
  Scalar.select (FloatOps.cmpf (F := Ideal) (φ := .f32) .oge x (Ideal.ofBits .f32 0x00000000#32)) x
    (Ideal.ofBits .f32 0x3DCCCCCD#32 * x)

/-- An edge message from contraction-first operands. -/
def edgeK {n : ℕ} (x0 x1 : (⟨2, ![n, 64]⟩ : Shape).Idx → EReal) (w2 w3 : (⟨2, ![64, 128]⟩ : Shape).Idx → EReal)
    (b4 : (⟨2, ![1, 128]⟩ : Shape).Idx → EReal) (w5 : (⟨2, ![128, 128]⟩ : Shape).Idx → EReal)
    (b6 : (⟨2, ![1, 128]⟩ : Shape).Idx → EReal) (e : Fin n) (o : Fin 128) : EReal :=
  (∑ c : Fin 128, leaky ((∑ a : Fin 64, x0 (ix2 e a) * w2 (ix2 a c) + ∑ a : Fin 64, x1 (ix2 e a) * w3 (ix2 a c))
      + b4 (ix2 (0 : Fin 1) c)) * w5 (ix2 c o)) + b6 (ix2 (0 : Fin 1) o)

/-- A node's output from contraction-first operands. -/
def nodeK {n : ℕ} (x0 : (⟨2, ![n, 64]⟩ : Shape).Idx → EReal) (x1 : (⟨2, ![n, 128]⟩ : Shape).Idx → EReal)
    (x2 : (⟨2, ![n, 64]⟩ : Shape).Idx → EReal) (w3 : (⟨2, ![64, 64]⟩ : Shape).Idx → EReal)
    (w4 : (⟨2, ![128, 64]⟩ : Shape).Idx → EReal) (w5 : (⟨2, ![64, 64]⟩ : Shape).Idx → EReal)
    (b6 : (⟨2, ![1, 64]⟩ : Shape).Idx → EReal) (w7 : (⟨2, ![64, 64]⟩ : Shape).Idx → EReal)
    (b8 : (⟨2, ![1, 64]⟩ : Shape).Idx → EReal) (e : Fin n) (o : Fin 64) : EReal :=
  (∑ c : Fin 64, leaky ((((∑ a : Fin 64, x0 (ix2 e a) * w3 (ix2 a c) + ∑ a : Fin 128, x1 (ix2 e a) * w4 (ix2 a c))
        + ∑ a : Fin 64, x2 (ix2 e a) * w5 (ix2 a c)))
      + b6 (ix2 (0 : Fin 1) c)) * w7 (ix2 c o)) + b8 (ix2 (0 : Fin 1) o)

/-- An edge message over the weights as given: W1a, W1b are [out, in]; the first 64 input columns of W1a meet the
    gathered source features, the last 64 the edge attributes. -/
def edgeSpec {n : ℕ} (xs ea : (⟨2, ![n, 64]⟩ : Shape).Idx → EReal) (W1a : (⟨2, ![128, 128]⟩ : Shape).Idx → EReal)
    (b1a : (⟨1, ![128]⟩ : Shape).Idx → EReal) (W1b : (⟨2, ![128, 128]⟩ : Shape).Idx → EReal)
    (b1b : (⟨1, ![128]⟩ : Shape).Idx → EReal) (e : Fin n) (o : Fin 128) : EReal :=
  (∑ c : Fin 128, leaky ((∑ a : Fin 64, xs (ix2 e a) * W1a (ix2 c ⟨a.val, by have := a.isLt; omega⟩)
        + ∑ a : Fin 64, ea (ix2 e a) * W1a (ix2 c ⟨64 + a.val, by have := a.isLt; omega⟩))
      + b1a (ix1 c)) * W1b (ix2 o c)) + b1b (ix1 o)

/-- A node's output over the weights as given: W2a is [64, 256] with input columns 0–63 for the node's own features,
    64–191 for the aggregated messages, 192–255 for the gathered graph features; W2b is [64, 64]. -/
def nodeSpec {n : ℕ} (xt : (⟨2, ![n, 64]⟩ : Shape).Idx → EReal) (agg : (⟨2, ![n, 128]⟩ : Shape).Idx → EReal)
    (ug : (⟨2, ![n, 64]⟩ : Shape).Idx → EReal) (W2a : (⟨2, ![64, 256]⟩ : Shape).Idx → EReal)
    (b2a : (⟨1, ![64]⟩ : Shape).Idx → EReal) (W2b : (⟨2, ![64, 64]⟩ : Shape).Idx → EReal)
    (b2b : (⟨1, ![64]⟩ : Shape).Idx → EReal) (e : Fin n) (o : Fin 64) : EReal :=
  (∑ c : Fin 64, leaky ((((∑ a : Fin 64, xt (ix2 e a) * W2a (ix2 c ⟨a.val, by have := a.isLt; omega⟩)
          + ∑ a : Fin 128, agg (ix2 e a) * W2a (ix2 c ⟨64 + a.val, by have := a.isLt; omega⟩))
        + ∑ a : Fin 64, ug (ix2 e a) * W2a (ix2 c ⟨64 + 128 + a.val, by have := a.isLt; omega⟩)))
      + b2a (ix1 c)) * W2b (ix2 o c)) + b2b (ix1 o)

end Cert.Spec

end
-- ==== Proof.EdgeTile.lean ====
/-
  The edge region's body at one entry: what a grid point leaves in its output block, at row r and feature o, is the
  edge-message formula `Spec.edgeK` of the point's input blocks. The body casts every operand to bf16 and back
  (the identity on extended reals), multiplies the two 64-wide inputs by the two halves of the first weight matrix and
  adds the two products and the bias row, applies the leaky rectifier, multiplies by the second weight matrix and adds
  its bias row.
-/
import proofs.«142320_j24756191494620_2_alg».proof.Proof.Gen.KernelIdeal.Frame
import proofs.«142320_j24756191494620_2_alg».proof.Proof.LibDense
import proofs.«142320_j24756191494620_2_alg».proof.Proof.Spec

set_option maxRecDepth 16384

noncomputable section

namespace Cert.KernelIdeal.Tiles

open Idealize.ShloMosaic Idealize.ShloMosaic.ValueIdx Cert.KernelIdeal Cert.KernelIdeal.Gen Cert.Dense Cert.Spec
open Cert.KernelIdeal.Facts₀

theorem hz2 : (![0, 0] : Fin 2 → Nat) = fun _ => 0 := funext fun a => by fin_cases a <;> rfl

theorem out0_7_apply (x0 x1 : Vec Ideal S8000x64 .f32) (x2 x3 : Vec Ideal S64x128 .f32) (x4 : Vec Ideal S1x128 .f32)
    (x5 : Vec Ideal S128x128 .f32) (x6 : Vec Ideal S1x128 .f32) (r : Fin 8000) (o : Fin 128) :
    out0_7 (F := Ideal) x0 x1 x2 x3 x4 x5 x6 (ix2 r o) = edgeK x0 x1 x2 x3 x4 x5 x6 r o := by
  unfold out0_7
  rw [View.canon_unit_zero hz2]
  simp only [View.ld_unit_zero (S := S8000x64) hz2, View.ld_unit_zero (S := S64x128) hz2,
    View.ld_unit_zero (S := S1x128) hz2, View.ld_unit_zero (S := S128x128) hz2]
  unfold k0_pay1
  simp only [shapeCast_self]
  unfold dot_S8000x64_S64x128_S8000x128_1_0_0_1_n_n dot_S8000x128_S128x128_S8000x128_1_0_0_1_n_n
  rw [addf_apply, matmul_plain_apply, broadcastTo_1b_ab_apply]
  unfold edgeK
  refine congrArg₂ (· + ·) (Finset.sum_congr rfl fun c _ => ?_) rfl
  rw [truncf_apply, truncf_apply, select_apply, cmpf_apply, mulf_apply, broadcast_apply, broadcast_apply]
  simp only [addf_apply, broadcastTo_1b_ab_apply]
  rw [matmul_plain_apply, matmul_plain_apply]
  rfl

end Cert.KernelIdeal.Tiles

end
-- ==== Proof.NodeTile.lean ====
/-
  The node region's body at one entry: what a grid point leaves in its output block, at row r and feature o, is the
  node-output formula `Spec.nodeK` of the point's input blocks. The body casts every operand to bf16 and back (the
  identity on extended reals), multiplies the three inputs (the node's own features, the aggregated messages, the
  gathered graph features) by the three blocks of the first weight matrix and adds the three products and the bias
  row, applies the leaky rectifier, multiplies by the second weight matrix and adds its bias row.
-/
import proofs.«142320_j24756191494620_2_alg».proof.Proof.Gen.KernelIdeal.Frame
import proofs.«142320_j24756191494620_2_alg».proof.Proof.LibDense
import proofs.«142320_j24756191494620_2_alg».proof.Proof.Spec

set_option maxRecDepth 16384

noncomputable section

namespace Cert.KernelIdeal.Tiles

open Idealize.ShloMosaic Idealize.ShloMosaic.ValueIdx Cert.KernelIdeal Cert.KernelIdeal.Gen Cert.Dense Cert.Spec
open Cert.KernelIdeal.Facts₀

theorem hz2' : (![0, 0] : Fin 2 → Nat) = fun _ => 0 := funext fun a => by fin_cases a <;> rfl

theorem out1_9_apply (x0 : Vec Ideal S5000x64 .f32) (x1 : Vec Ideal S5000x128 .f32) (x2 : Vec Ideal S5000x64 .f32)
    (x3 : Vec Ideal S64x64 .f32) (x4 : Vec Ideal S128x64 .f32) (x5 : Vec Ideal S64x64 .f32) (x6 : Vec Ideal S1x64 .f32)
    (x7 : Vec Ideal S64x64 .f32) (x8 : Vec Ideal S1x64 .f32) (r : Fin 5000) (o : Fin 64) :
    out1_9 (F := Ideal) x0 x1 x2 x3 x4 x5 x6 x7 x8 (ix2 r o) = nodeK x0 x1 x2 x3 x4 x5 x6 x7 x8 r o := by
  unfold out1_9
  rw [View.canon_unit_zero hz2']
  simp only [View.ld_unit_zero (S := S5000x64) hz2', View.ld_unit_zero (S := S5000x128) hz2',
    View.ld_unit_zero (S := S64x64) hz2', View.ld_unit_zero (S := S128x64) hz2', View.ld_unit_zero (S := S1x64) hz2']
  unfold k1_pay1 k1_pay2
  simp only [shapeCast_self]
  unfold dot_S5000x64_S64x64_S5000x64_1_0_0_1_n_n dot_S5000x128_S128x64_S5000x64_1_0_0_1_n_n
  rw [addf_apply, matmul_plain_apply, broadcastTo_1b_ab_apply]
  unfold nodeK
  refine congrArg₂ (· + ·) (Finset.sum_congr rfl fun c _ => ?_) rfl
  rw [truncf_apply, truncf_apply, select_apply, cmpf_apply, mulf_apply, broadcast_apply, broadcast_apply]
  simp only [addf_apply, broadcastTo_1b_ab_apply]
  rw [matmul_plain_apply, matmul_plain_apply, matmul_plain_apply]
  rfl

end Cert.KernelIdeal.Tiles

end
-- ==== Proof.KHost.lean ====
/-
  What the host operations leave in the weight and bias operands of the two regions, read at one entry, as entries of
  the argument arrays. The first weight matrix of each stage is transposed and cut into row blocks (one per input of the
  stage), the second is transposed, and each bias vector becomes a one-row matrix:
    edge stage:  w2(a, k) = W1a(k, a),  w3(a, k) = W1a(k, 64 + a),  b4(0, k) = b1a(k),  w5(k, o) = W1b(o, k),  b6(0, o) = b1b(o);
    node stage:  w3(a, k) = W2a(k, a),  w4(a, k) = W2a(k, 64 + a),  w5(a, k) = W2a(k, 192 + a),  b6(0, k) = b2a(k),
                 w7(k, o) = W2b(o, k),  b8(0, o) = b2b(o).
  No host operation and no region writes an argument, so an argument buffer read at either region's entry holds what
  the program was launched with.
-/
import proofs.«142320_j24756191494620_2_alg».proof.Proof.Gen.KernelIdeal.Frame
import proofs.«142320_j24756191494620_2_alg».proof.Proof.LibDense
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Idealize.ShloMosaic.ValueIdx Cert.Dense
open Cert.KernelIdeal Cert.KernelIdeal.Gen

variable (m : (ℓ : Loc nD τ sig) → Buf (Elt Ideal) ℓ) (ρ : Dev nD → PrngReg) (c : Dev nD)

/-! ## The arguments at the regions' entries -/

theorem W1_arg0 : W1 m ρ c (Proc.devRef .tc main_arg0) = (m ((c : Thread nD τ).loc main_arg0)) := by
  show StableHlo.after hostOps0 (W0 m ρ c) (Proc.devRef .tc main_arg0) = _
  after_results
  all_goals rfl
theorem W1_arg1 : W1 m ρ c (Proc.devRef .tc main_arg1) = (m ((c : Thread nD τ).loc main_arg1)) := by
  show StableHlo.after hostOps0 (W0 m ρ c) (Proc.devRef .tc main_arg1) = _
  after_results
  all_goals rfl
theorem W1_arg2 : W1 m ρ c (Proc.devRef .tc main_arg2) = (m ((c : Thread nD τ).loc main_arg2)) := by
  show StableHlo.after hostOps0 (W0 m ρ c) (Proc.devRef .tc main_arg2) = _
  after_results
  all_goals rfl
theorem W1_arg3 : W1 m ρ c (Proc.devRef .tc main_arg3) = (m ((c : Thread nD τ).loc main_arg3)) := by
  show StableHlo.after hostOps0 (W0 m ρ c) (Proc.devRef .tc main_arg3) = _
  after_results
  all_goals rfl
theorem W1_arg4 : W1 m ρ c (Proc.devRef .tc main_arg4) = (m ((c : Thread nD τ).loc main_arg4)) := by
  show StableHlo.after hostOps0 (W0 m ρ c) (Proc.devRef .tc main_arg4) = _
  after_results
  all_goals rfl
theorem W1_arg5 : W1 m ρ c (Proc.devRef .tc main_arg5) = (m ((c : Thread nD τ).loc main_arg5)) := by
  show StableHlo.after hostOps0 (W0 m ρ c) (Proc.devRef .tc main_arg5) = _
  after_results
  all_goals rfl
theorem W1_arg6 : W1 m ρ c (Proc.devRef .tc main_arg6) = (m ((c : Thread nD τ).loc main_arg6)) := by
  show StableHlo.after hostOps0 (W0 m ρ c) (Proc.devRef .tc main_arg6) = _
  after_results
  all_goals rfl
theorem W1_arg7 : W1 m ρ c (Proc.devRef .tc main_arg7) = (m ((c : Thread nD τ).loc main_arg7)) := by
  show StableHlo.after hostOps0 (W0 m ρ c) (Proc.devRef .tc main_arg7) = _
  after_results
  all_goals rfl
theorem W1_arg8 : W1 m ρ c (Proc.devRef .tc main_arg8) = (m ((c : Thread nD τ).loc main_arg8)) := by
  show StableHlo.after hostOps0 (W0 m ρ c) (Proc.devRef .tc main_arg8) = _
  after_results
  all_goals rfl
theorem W1_arg9 : W1 m ρ c (Proc.devRef .tc main_arg9) = (m ((c : Thread nD τ).loc main_arg9)) := by
  show StableHlo.after hostOps0 (W0 m ρ c) (Proc.devRef .tc main_arg9) = _
  after_results
  all_goals rfl
theorem W1_arg10 : W1 m ρ c (Proc.devRef .tc main_arg10) = (m ((c : Thread nD τ).loc main_arg10)) := by
  show StableHlo.after hostOps0 (W0 m ρ c) (Proc.devRef .tc main_arg10) = _
  after_results
  all_goals rfl
theorem W1_arg11 : W1 m ρ c (Proc.devRef .tc main_arg11) = (m ((c : Thread nD τ).loc main_arg11)) := by
  show StableHlo.after hostOps0 (W0 m ρ c) (Proc.devRef .tc main_arg11) = _
  after_results
  all_goals rfl
theorem W1_arg12 : W1 m ρ c (Proc.devRef .tc main_arg12) = (m ((c : Thread nD τ).loc main_arg12)) := by
  show StableHlo.after hostOps0 (W0 m ρ c) (Proc.devRef .tc main_arg12) = _
  after_results
  all_goals rfl
theorem W1_arg13 : W1 m ρ c (Proc.devRef .tc main_arg13) = (m ((c : Thread nD τ).loc main_arg13)) := by
  show StableHlo.after hostOps0 (W0 m ρ c) (Proc.devRef .tc main_arg13) = _
  after_results
  all_goals rfl
theorem W2_arg1 : W2 m ρ c (Proc.devRef .tc main_arg1) = (m ((c : Thread nD τ).loc main_arg1)) :=
  (W2_of_ne m ρ c main_arg1 (by decide)).trans (W1_arg1 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W2_arg13 : W2 m ρ c (Proc.devRef .tc main_arg13) = (m ((c : Thread nD τ).loc main_arg13)) :=
  (W2_of_ne m ρ c main_arg13 (by decide)).trans (W1_arg13 m ρ c)

/-! ## The edge stage's weights and biases at its region's entry -/

theorem edge_w2 (a : Fin 64) (k : Fin 128) :
    (W1 m ρ c (Proc.devRef .tc main_v12) : Vec Ideal S64x128 .f32) (ix2 a k)
      = ((m ((c : Thread nD τ).loc main_arg6)) : Vec Ideal S128x128 .f32) (ix2 k ⟨a.val, by have := a.isLt; omega⟩) := by
  have e : (W1 m ρ c (Proc.devRef .tc main_v12) : Vec Ideal S64x128 .f32)
      = extractStridedSlice S64x128 ![0, 0] (transpose S128x128 [1, 0] ((m ((c : Thread nD τ).loc main_arg6)) : Vec Ideal S128x128 .f32)
          transposes_S128x128_S128x128_1_0) slices_S128x128_S64x128_0_0 := by
    show StableHlo.after hostOps0 (W0 m ρ c) (Proc.devRef .tc main_v12) = _
    after_results
    all_goals rfl
  rw [e, sliceRows_apply 0 _ _ a k (by have := a.isLt; omega), transpose_ix2_apply]
  exact congrArg _ (congrArg (ix2 k) (Fin.ext (Nat.zero_add _)))

theorem edge_w3 (a : Fin 64) (k : Fin 128) :
    (W1 m ρ c (Proc.devRef .tc main_v13) : Vec Ideal S64x128 .f32) (ix2 a k)
      = ((m ((c : Thread nD τ).loc main_arg6)) : Vec Ideal S128x128 .f32) (ix2 k ⟨64 + a.val, by have := a.isLt; omega⟩) := by
  have e : (W1 m ρ c (Proc.devRef .tc main_v13) : Vec Ideal S64x128 .f32)
      = extractStridedSlice S64x128 ![64, 0] (transpose S128x128 [1, 0] ((m ((c : Thread nD τ).loc main_arg6)) : Vec Ideal S128x128 .f32)
          transposes_S128x128_S128x128_1_0) slices_S128x128_S64x128_64_0 := by
    show StableHlo.after hostOps0 (W0 m ρ c) (Proc.devRef .tc main_v13) = _
    after_results
    all_goals rfl
  rw [e, sliceRows_apply 64 _ _ a k (by have := a.isLt; omega), transpose_ix2_apply]

theorem edge_b4 (k : Fin 128) :
    (W1 m ρ c (Proc.devRef .tc main_v15) : Vec Ideal S1x128 .f32) (ix2 (0 : Fin 1) k)
      = ((m ((c : Thread nD τ).loc main_arg7)) : Vec Ideal S128 .f32) (ix1 k) := by
  have e : (W1 m ρ c (Proc.devRef .tc main_v15) : Vec Ideal S1x128 .f32)
      = shapeCast S1x128 ((m ((c : Thread nD τ).loc main_arg7)) : Vec Ideal S128 .f32) shapeCasts_S128_S1x128 := by
    show StableHlo.after hostOps0 (W0 m ρ c) (Proc.devRef .tc main_v15) = _
    after_results
    all_goals rfl
  rw [e, shapeCast_a_1a_apply]

theorem edge_w5 (k o : Fin 128) :
    (W1 m ρ c (Proc.devRef .tc main_v14) : Vec Ideal S128x128 .f32) (ix2 k o)
      = ((m ((c : Thread nD τ).loc main_arg8)) : Vec Ideal S128x128 .f32) (ix2 o k) := by
  have e : (W1 m ρ c (Proc.devRef .tc main_v14) : Vec Ideal S128x128 .f32)
      = transpose S128x128 [1, 0] ((m ((c : Thread nD τ).loc main_arg8)) : Vec Ideal S128x128 .f32) transposes_S128x128_S128x128_1_0 := by
    show StableHlo.after hostOps0 (W0 m ρ c) (Proc.devRef .tc main_v14) = _
    after_results
    all_goals rfl
  rw [e, transpose_ix2_apply]

theorem edge_b6 (o : Fin 128) :
    (W1 m ρ c (Proc.devRef .tc main_v16) : Vec Ideal S1x128 .f32) (ix2 (0 : Fin 1) o)
      = ((m ((c : Thread nD τ).loc main_arg9)) : Vec Ideal S128 .f32) (ix1 o) := by
  have e : (W1 m ρ c (Proc.devRef .tc main_v16) : Vec Ideal S1x128 .f32)
      = shapeCast S1x128 ((m ((c : Thread nD τ).loc main_arg9)) : Vec Ideal S128 .f32) shapeCasts_S128_S1x128 := by
    show StableHlo.after hostOps0 (W0 m ρ c) (Proc.devRef .tc main_v16) = _
    after_results
    all_goals rfl
  rw [e, shapeCast_a_1a_apply]

theorem edge_ea : W1 m ρ c (Proc.devRef .tc main_arg3) = (m ((c : Thread nD τ).loc main_arg3)) := W1_arg3 m ρ c

/-! ## The node stage's weights and biases at its region's entry -/

theorem node_xt : W3 m ρ c (Proc.devRef .tc main_arg1) = (m ((c : Thread nD τ).loc main_arg1)) := by
  show StableHlo.after hostOps1 (W2 m ρ c) (Proc.devRef .tc main_arg1) = _
  after_results
  all_goals (first | exact W2_arg1 m ρ c | rfl)

theorem node_w3 (a : Fin 64) (k : Fin 64) :
    (W3 m ρ c (Proc.devRef .tc main_v29) : Vec Ideal S64x64 .f32) (ix2 a k)
      = ((m ((c : Thread nD τ).loc main_arg10)) : Vec Ideal S64x256 .f32) (ix2 k ⟨a.val, by have := a.isLt; omega⟩) := by
  have e : (W3 m ρ c (Proc.devRef .tc main_v29) : Vec Ideal S64x64 .f32)
      = extractStridedSlice S64x64 ![0, 0] (transpose S256x64 [1, 0] ((m ((c : Thread nD τ).loc main_arg10)) : Vec Ideal S64x256 .f32)
          transposes_S64x256_S256x64_1_0) slices_S256x64_S64x64_0_0 := by
    show StableHlo.after hostOps1 (W2 m ρ c) (Proc.devRef .tc main_v29) = _
    after_results
    all_goals (first | rfl | (rw [W2_arg10 m ρ c]; try rfl))
  rw [e, sliceRows_apply 0 _ _ a k (by have := a.isLt; omega), transpose_ix2_apply]
  exact congrArg _ (congrArg (ix2 k) (Fin.ext (Nat.zero_add _)))

theorem node_w4 (a : Fin 128) (k : Fin 64) :
    (W3 m ρ c (Proc.devRef .tc main_v30) : Vec Ideal S128x64 .f32) (ix2 a k)
      = ((m ((c : Thread nD τ).loc main_arg10)) : Vec Ideal S64x256 .f32) (ix2 k ⟨64 + a.val, by have := a.isLt; omega⟩) := by
  have e : (W3 m ρ c (Proc.devRef .tc main_v30) : Vec Ideal S128x64 .f32)
      = extractStridedSlice S128x64 ![64, 0] (transpose S256x64 [1, 0] ((m ((c : Thread nD τ).loc main_arg10)) : Vec Ideal S64x256 .f32)
          transposes_S64x256_S256x64_1_0) slices_S256x64_S128x64_64_0 := by
    show StableHlo.after hostOps1 (W2 m ρ c) (Proc.devRef .tc main_v30) = _
    after_results
    all_goals (first | rfl | (rw [W2_arg10 m ρ c]; try rfl))
  rw [e, sliceRows_apply 64 _ _ a k (by have := a.isLt; omega), transpose_ix2_apply]

theorem node_w5 (a : Fin 64) (k : Fin 64) :
    (W3 m ρ c (Proc.devRef .tc main_v31) : Vec Ideal S64x64 .f32) (ix2 a k)
      = ((m ((c : Thread nD τ).loc main_arg10)) : Vec Ideal S64x256 .f32) (ix2 k ⟨64 + 128 + a.val, by have := a.isLt; omega⟩) := by
  have e : (W3 m ρ c (Proc.devRef .tc main_v31) : Vec Ideal S64x64 .f32)
      = extractStridedSlice S64x64 ![192, 0] (transpose S256x64 [1, 0] ((m ((c : Thread nD τ).loc main_arg10)) : Vec Ideal S64x256 .f32)
          transposes_S64x256_S256x64_1_0) slices_S256x64_S64x64_192_0 := by
    show StableHlo.after hostOps1 (W2 m ρ c) (Proc.devRef .tc main_v31) = _
    after_results
    all_goals (first | rfl | (rw [W2_arg10 m ρ c]; try rfl))
  rw [e, sliceRows_apply 192 _ _ a k (by have := a.isLt; omega), transpose_ix2_apply]

theorem node_b6 (k : Fin 64) :
    (W3 m ρ c (Proc.devRef .tc main_v33) : Vec Ideal S1x64 .f32) (ix2 (0 : Fin 1) k)
      = ((m ((c : Thread nD τ).loc main_arg11)) : Vec Ideal S64 .f32) (ix1 k) := by
  have e : (W3 m ρ c (Proc.devRef .tc main_v33) : Vec Ideal S1x64 .f32)
      = shapeCast S1x64 ((m ((c : Thread nD τ).loc main_arg11)) : Vec Ideal S64 .f32) shapeCasts_S64_S1x64 := by
    show StableHlo.after hostOps1 (W2 m ρ c) (Proc.devRef .tc main_v33) = _
    after_results
    all_goals (first | rfl | (rw [W2_arg11 m ρ c]; try rfl))
  rw [e, shapeCast_a_1a_apply]

theorem node_w7 (k o : Fin 64) :
    (W3 m ρ c (Proc.devRef .tc main_v32) : Vec Ideal S64x64 .f32) (ix2 k o)
      = ((m ((c : Thread nD τ).loc main_arg12)) : Vec Ideal S64x64 .f32) (ix2 o k) := by
  have e : (W3 m ρ c (Proc.devRef .tc main_v32) : Vec Ideal S64x64 .f32)
      = transpose S64x64 [1, 0] ((m ((c : Thread nD τ).loc main_arg12)) : Vec Ideal S64x64 .f32) transposes_S64x64_S64x64_1_0 := by
    show StableHlo.after hostOps1 (W2 m ρ c) (Proc.devRef .tc main_v32) = _
    after_results
    all_goals (first | rfl | (rw [W2_arg12 m ρ c]; try rfl))
  rw [e, transpose_ix2_apply]

theorem node_b8 (o : Fin 64) :
    (W3 m ρ c (Proc.devRef .tc main_v34) : Vec Ideal S1x64 .f32) (ix2 (0 : Fin 1) o)
      = ((m ((c : Thread nD τ).loc main_arg13)) : Vec Ideal S64 .f32) (ix1 o) := by
  have e : (W3 m ρ c (Proc.devRef .tc main_v34) : Vec Ideal S1x64 .f32)
      = shapeCast S1x64 ((m ((c : Thread nD τ).loc main_arg13)) : Vec Ideal S64 .f32) shapeCasts_S64_S1x64 := by
    show StableHlo.after hostOps1 (W2 m ρ c) (Proc.devRef .tc main_v34) = _
    after_results
    all_goals (first | rfl | (rw [W2_arg13 m ρ c]; try rfl))
  rw [e, shapeCast_a_1a_apply]

end Cert.KernelIdeal.KHost

end
-- ==== Proof.KValue.lean ====
/-
  The two regions' output arrays as whole-array formulas.
  For any contents at a region's entry, the array the region's write-backs leave is, entry by entry, the stage's
  formula of the arrays found at entry: every grid point writes the block of rows it owns, the blocks tile the rows, and
  a row's entries depend only on that row of the blocked inputs and on the small operands every point sees whole.
  At the program's own entry contents the small operands are the transposed, row-cut weights and the bias rows, so the
  edge region leaves `Spec.edgeSpec` of the gathered source features, the edge attributes and the first stage's
  weights, and the node region leaves `Spec.nodeSpec` of the node features, the aggregated messages, the gathered
  graph features and the second stage's weights.
-/
import proofs.«142320_j24756191494620_2_alg».proof.Proof.Gen.KernelIdeal.Frame
import proofs.«142320_j24756191494620_2_alg».proof.Proof.BlocksToArray
import proofs.«142320_j24756191494620_2_alg».proof.Proof.EdgeTile
import proofs.«142320_j24756191494620_2_alg».proof.Proof.NodeTile
import proofs.«142320_j24756191494620_2_alg».proof.Proof.KHost
import proofs.«142320_j24756191494620_2_alg».proof.Proof.Spec

set_option maxRecDepth 16384

noncomputable section

namespace Cert.KernelIdeal.KValue

open Idealize.ShloMosaic Idealize.ShloMosaic.TcCoe Idealize.SL.Sem
open Idealize.ShloMosaic.ValueIdx
open Cert.KernelIdeal Cert.KernelIdeal.Gen Cert.KernelIdeal.Blocks Cert.KernelIdeal.Tiles Cert.KernelIdeal.KHost Cert.Spec

section AnyEntry
variable (V : (c : Dev nD) → (b : Ref sig .tc) → Buf (Elt Ideal) ((c : Thread nD τ).loc b)) (c : Dev nD)

/-- The edge region's output array over any entry contents. -/
theorem edge_array :
    (dat0 V c).arrAt 7 cfg0.N = fun i => edgeK (V c main_v10) (V c main_arg3) (V c main_v12) (V c main_v13)
      (V c main_v15) (V c main_v14) (V c main_v16) (i 0) (i 1) :=
  arrAt0 V c (fun x0 x1 w2 w3 b4 w5 b6 i => edgeK x0 x1 w2 w3 b4 w5 b6 (i 0) (i 1)) (fun t r k => by
    refine (out0_7_apply _ _ _ _ _ _ _ r k).trans ?_
    rw [iblk0_2 V c t, iblk0_3 V c t, iblk0_4 V c t, iblk0_5 V c t, iblk0_6 V c t]
    show edgeK (iblk0 V c 0 t) (iblk0 V c 1 t) _ _ _ _ _ r k = edgeK _ _ _ _ _ _ _ (row0 t r) k
    unfold edgeK
    simp only [iblk0_0 V c t r, iblk0_1 V c t r])

/-- The node region's output array over any entry contents. -/
theorem node_array :
    (dat1 V c).arrAt 9 cfg1.N = fun i => nodeK (V c main_arg1) (V c main_v20) (V c main_v27) (V c main_v29)
      (V c main_v30) (V c main_v31) (V c main_v33) (V c main_v32) (V c main_v34) (i 0) (i 1) :=
  arrAt1 V c (fun x0 x1 x2 w3 w4 w5 b6 w7 b8 i => nodeK x0 x1 x2 w3 w4 w5 b6 w7 b8 (i 0) (i 1)) (fun t r k => by
    refine (out1_9_apply _ _ _ _ _ _ _ _ _ r k).trans ?_
    rw [iblk1_3 V c t, iblk1_4 V c t, iblk1_5 V c t, iblk1_6 V c t, iblk1_7 V c t, iblk1_8 V c t]
    show nodeK (iblk1 V c 0 t) (iblk1 V c 1 t) (iblk1 V c 2 t) _ _ _ _ _ _ r k = nodeK _ _ _ _ _ _ _ _ _ (row1 t r) k
    unfold nodeK
    simp only [iblk1_0 V c t r, iblk1_1 V c t r, iblk1_2 V c t r])

end AnyEntry

variable (m : (ℓ : Loc nD τ sig) → Buf (Elt Ideal) ℓ) (ρ : Dev nD → PrngReg) (c : Dev nD)

/-- The messages the edge region leaves, over the arguments' weights. -/
theorem msg_apply (e : Fin 1600000) (o : Fin 128) :
    (W2 m ρ c (Proc.devRef .tc main_v17) : Vec Ideal S1600000x128 .f32) (ix2 e o)
      = edgeSpec ((W1 m ρ c (Proc.devRef .tc main_v10)) : Vec Ideal S1600000x64 .f32) ((m ((c : Thread nD τ).loc main_arg3)) : Vec Ideal S1600000x64 .f32)
          ((m ((c : Thread nD τ).loc main_arg6)) : Vec Ideal S128x128 .f32) ((m ((c : Thread nD τ).loc main_arg7)) : Vec Ideal S128 .f32)
          ((m ((c : Thread nD τ).loc main_arg8)) : Vec Ideal S128x128 .f32) ((m ((c : Thread nD τ).loc main_arg9)) : Vec Ideal S128 .f32) e o := by
  have h : W2 m ρ c (Proc.devRef .tc main_v17) = _ := (W2_arr m ρ c 7).trans (edge_array (V1 m ρ) c)
  rw [h]
  show edgeK (W1 m ρ c (Proc.devRef .tc main_v10)) (W1 m ρ c (Proc.devRef .tc main_arg3)) (W1 m ρ c (Proc.devRef .tc main_v12)) (W1 m ρ c (Proc.devRef .tc main_v13)) (W1 m ρ c (Proc.devRef .tc main_v15)) (W1 m ρ c (Proc.devRef .tc main_v14)) (W1 m ρ c (Proc.devRef .tc main_v16)) e o = _
  rw [edge_ea m ρ c]
  unfold edgeK edgeSpec
  simp only [edge_w2 m ρ c, edge_w3 m ρ c, edge_b4 m ρ c, edge_w5 m ρ c, edge_b6 m ρ c]

/-- The result the node region leaves, over the arguments' weights. -/
theorem out_apply (n : Fin 100000) (o : Fin 64) :
    (W4 m ρ c (Proc.devRef .tc main_v35) : Vec Ideal S100000x64 .f32) (ix2 n o)
      = nodeSpec ((m ((c : Thread nD τ).loc main_arg1)) : Vec Ideal S100000x64 .f32) ((W3 m ρ c (Proc.devRef .tc main_v20)) : Vec Ideal S100000x128 .f32)
          ((W3 m ρ c (Proc.devRef .tc main_v27)) : Vec Ideal S100000x64 .f32) ((m ((c : Thread nD τ).loc main_arg10)) : Vec Ideal S64x256 .f32)
          ((m ((c : Thread nD τ).loc main_arg11)) : Vec Ideal S64 .f32) ((m ((c : Thread nD τ).loc main_arg12)) : Vec Ideal S64x64 .f32) ((m ((c : Thread nD τ).loc main_arg13)) : Vec Ideal S64 .f32) n o := by
  have h : W4 m ρ c (Proc.devRef .tc main_v35) = _ := (W4_arr m ρ c 9).trans (node_array (V3 m ρ) c)
  rw [h]
  show nodeK (W3 m ρ c (Proc.devRef .tc main_arg1)) (W3 m ρ c (Proc.devRef .tc main_v20)) (W3 m ρ c (Proc.devRef .tc main_v27)) (W3 m ρ c (Proc.devRef .tc main_v29)) (W3 m ρ c (Proc.devRef .tc main_v30)) (W3 m ρ c (Proc.devRef .tc main_v31)) (W3 m ρ c (Proc.devRef .tc main_v33)) (W3 m ρ c (Proc.devRef .tc main_v32)) (W3 m ρ c (Proc.devRef .tc main_v34)) n o = _
  rw [node_xt m ρ c]
  unfold nodeK nodeSpec
  simp only [node_w3 m ρ c, node_w4 m ρ c, node_w5 m ρ c, node_b6 m ρ c, node_w7 m ρ c, node_b8 m ρ c]

end Cert.KernelIdeal.KValue

end
-- ==== Proof.KShared.lean ====
/-
  The irregular-index host operations of the kernel program, as functions of the argument arrays:
  the source features gathered along the edges (rows of the source table at the edges' source indices, a negative index
  wrapped by the table's height), the graph features gathered along the nodes (rows of the small table at the nodes'
  batch indices, wrapped likewise), and the scatter-sum of the edge region's messages onto the edges' target rows of a
  zero array. Each is read off the host operations' fold at the region entry where it is consumed.
-/
import proofs.«142320_j24756191494620_2_alg».proof.Proof.Gen.KernelIdeal.Frame
import proofs.«142320_j24756191494620_2_alg».proof.Proof.KHost
import Idealize.ShloMosaic.Lib.StableHlo.Run

set_option maxRecDepth 16384

noncomputable section

namespace Cert.KernelIdeal.KShared

open Idealize.ShloMosaic Idealize.ShloMosaic.TcCoe Idealize.SL.Sem Idealize.ShloMosaic.StableHlo
open Cert.KernelIdeal Cert.KernelIdeal.Gen Cert.KernelIdeal.KHost

/-- Row `k` of the [2, E] edge-index array as a vector of E words. -/
def edgeRow (k : ℕ) (hs : S2x1600000.Slices ![k, 0] S1x1600000) (a2 : IVec S2x1600000 32) : IVec S1600000 32 :=
  shapeCast S1600000 (extractStridedSlice S1x1600000 ![k, 0] a2 hs) Gen.shapeCasts_S1x1600000_S1600000

/-- The edges' source indices as gather start indices: a negative word wrapped by 100000. -/
def srcIdx (a2 : IVec S2x1600000 32) : IVec S1600000x1 32 :=
  broadcastInDim S1600000x1 ![0] Gen.bcast_S1600000_S1600000x1_0
    (select
      (cmpi .slt (edgeRow 0 Gen.slices_S2x1600000_S1x1600000_0_0 a2)
        (broadcastInDim S1600000 ![] Gen.bcast_S_S1600000 (constantI S_ 32 0#32)))
      (addi (edgeRow 0 Gen.slices_S2x1600000_S1x1600000_0_0 a2)
        (broadcastInDim S1600000 ![] Gen.bcast_S_S1600000 (constantI S_ 32 100000#32)))
      (edgeRow 0 Gen.slices_S2x1600000_S1x1600000_0_0 a2))

/-- The edges' target indices as scatter indices. -/
def tgtIdx (a2 : IVec S2x1600000 32) : IVec S1600000x1 32 :=
  broadcastInDim S1600000x1 ![0] Gen.bcast_S1600000_S1600000x1_0 (edgeRow 1 Gen.slices_S2x1600000_S1x1600000_1_0 a2)

/-- The nodes' batch indices as gather start indices: a negative word wrapped by 64. -/
def batIdx (a5 : IVec S100000 32) : IVec S100000x1 32 :=
  broadcastInDim S100000x1 ![0] Gen.bcast_S100000_S100000x1_0
    (select (cmpi .slt a5 (broadcastInDim S100000 ![] Gen.bcast_S_S100000 (constantI S_ 32 0#32)))
      (addi a5 (broadcastInDim S100000 ![] Gen.bcast_S_S100000 (constantI S_ 32 64#32))) a5)

variable (m : (ℓ : Loc nD τ sig) → Buf (Elt Ideal) ℓ) (ρ : Dev nD → PrngReg) (c : Dev nD)

/-- At the edge region's entry its first input holds the gathered source features. -/
theorem xs_eq :
    W1 m ρ c (Proc.devRef .tc main_v10)
      = Host.gather gather_S100000x64_S1600000x1_S1600000x64_1_0_n_n_0_1_164 (m ((c : Thread nD τ).loc main_arg0)) (srcIdx (m ((c : Thread nD τ).loc main_arg2))) := by
  show StableHlo.after hostOps0 (W0 m ρ c) (Proc.devRef .tc main_v10) = _
  after_results
  all_goals rfl

/-- The target-index row survives the edge region untouched. -/
theorem W2_v3 :
    W2 m ρ c (Proc.devRef .tc main_v3) = edgeRow 1 Gen.slices_S2x1600000_S1x1600000_1_0 (m ((c : Thread nD τ).loc main_arg2)) :=
  (W2_of_ne m ρ c main_v3 (by decide)).trans (by
    show StableHlo.after hostOps0 (W0 m ρ c) (Proc.devRef .tc main_v3) = _
    after_results
    all_goals rfl)

/-- At the node region's entry its second input holds the scatter-sum of the edge region's messages. -/
theorem agg_eq :
    W3 m ρ c (Proc.devRef .tc main_v20)
      = Host.scatterAdd scatter_S100000x128_S1600000x1_S1600000x128_1_0_0_1
          (broadcastInDim S100000x128 ![] Gen.bcast_S_S100000x128 (constant (F := Ideal) S_ .f32 0x00000000#32))
          (tgtIdx (m ((c : Thread nD τ).loc main_arg2))) (W2 m ρ c (Proc.devRef .tc main_v17)) := by
  show StableHlo.after hostOps1 (W2 m ρ c) (Proc.devRef .tc main_v20) = _
  after_results
  all_goals (first | rfl | (rw [W2_v3 m ρ c]; try rfl))

/-- At the node region's entry its third input holds the gathered graph features. -/
theorem ug_eq :
    W3 m ρ c (Proc.devRef .tc main_v27)
      = Host.gather gather_S64x64_S100000x1_S100000x64_1_0_n_n_0_1_164 (m ((c : Thread nD τ).loc main_arg4)) (batIdx (m ((c : Thread nD τ).loc main_arg5))) := by
  show StableHlo.after hostOps1 (W2 m ρ c) (Proc.devRef .tc main_v27) = _
  after_results
  all_goals (first | rfl | (rw [W2_arg4 m ρ c, W2_arg5 m ρ c]; try rfl))

end Cert.KernelIdeal.KShared

end
-- ==== Proof.Cross.lean ====
/-
  The two programs' irregular-index operations are the same functions of the argument arrays: the kernel program's
  gathers and scatter-sum (its own shape records and side conditions) and the reference's (its own) differ only in
  the names of definitionally equal records.
-/
import proofs.«142320_j24756191494620_2_alg».proof.Proof.KShared
import proofs.«142320_j24756191494620_2_alg».proof.Proof.RefRun

set_option maxRecDepth 16384

noncomputable section

namespace Cert.Cross

open Idealize.ShloMosaic

section
variable (a0 : FVec Ideal Cert.KernelIdeal.S100000x64 .f32) (a2 : IVec Cert.KernelIdeal.S2x1600000 32)
  (a4 : FVec Ideal Cert.KernelIdeal.S64x64 .f32) (a5 : IVec Cert.KernelIdeal.S100000 32)
  (u : FVec Ideal Cert.KernelIdeal.S1600000x128 .f32)

set_option maxHeartbeats 400000 in
theorem gatherS_dims : (Cert.KernelIdeal.gather_S100000x64_S1600000x1_S1600000x64_1_0_n_n_0_1_164 :
      GatherDims Cert.KernelIdeal.S100000x64 Cert.KernelIdeal.S1600000x1 Cert.KernelIdeal.S1600000x64)
    = Cert.ReferenceIdeal.gather_S100000x64_S1600000x1_S1600000x64_1_0_n_n_0_1_164 := rfl

set_option maxHeartbeats 400000 in
theorem gatherB_dims : (Cert.KernelIdeal.gather_S64x64_S100000x1_S100000x64_1_0_n_n_0_1_164 :
      GatherDims Cert.KernelIdeal.S64x64 Cert.KernelIdeal.S100000x1 Cert.KernelIdeal.S100000x64)
    = Cert.ReferenceIdeal.gather_S64x64_S100000x1_S100000x64_1_0_n_n_0_1_164 := rfl

set_option maxHeartbeats 400000 in
theorem scatter_dims : (Cert.KernelIdeal.scatter_S100000x128_S1600000x1_S1600000x128_1_0_0_1 :
      ScatterDims Cert.KernelIdeal.S100000x128 Cert.KernelIdeal.S1600000x1 Cert.KernelIdeal.S1600000x128)
    = Cert.ReferenceIdeal.scatter_S100000x128_S1600000x1_S1600000x128_1_0_0_1 := rfl

set_option maxHeartbeats 400000 in
theorem srcIdx_eq : Cert.KernelIdeal.KShared.srcIdx a2 = Cert.ReferenceIdeal.RefRun.rIdxS (F := Ideal) a2 := rfl

set_option maxHeartbeats 400000 in
theorem tgtIdx_eq : Cert.KernelIdeal.KShared.tgtIdx a2 = Cert.ReferenceIdeal.RefRun.rIdxT (F := Ideal) a2 := rfl

set_option maxHeartbeats 400000 in
theorem batIdx_eq : Cert.KernelIdeal.KShared.batIdx a5 = Cert.ReferenceIdeal.RefRun.rIdxB (F := Ideal) a5 := rfl

/-- The gathered source features. -/
theorem xs_cross :
    Host.gather Cert.KernelIdeal.gather_S100000x64_S1600000x1_S1600000x64_1_0_n_n_0_1_164 a0 (Cert.KernelIdeal.KShared.srcIdx a2)
      = Cert.ReferenceIdeal.RefRun.rXs (F := Ideal) a0 a2 := by
  unfold Cert.ReferenceIdeal.RefRun.rXs
  rw [gatherS_dims, srcIdx_eq]

/-- The gathered graph features. -/
theorem ug_cross :
    Host.gather Cert.KernelIdeal.gather_S64x64_S100000x1_S100000x64_1_0_n_n_0_1_164 a4 (Cert.KernelIdeal.KShared.batIdx a5)
      = Cert.ReferenceIdeal.RefRun.rUg (F := Ideal) a4 a5 := by
  unfold Cert.ReferenceIdeal.RefRun.rUg
  rw [gatherB_dims, batIdx_eq]

/-- The scatter-sum of any messages onto the target rows of the zero array. -/
theorem agg_cross :
    Host.scatterAdd Cert.KernelIdeal.scatter_S100000x128_S1600000x1_S1600000x128_1_0_0_1
        (broadcastInDim Cert.KernelIdeal.S100000x128 ![] Cert.KernelIdeal.Gen.bcast_S_S100000x128
          (constant (F := Ideal) Cert.KernelIdeal.S_ .f32 0x00000000#32))
        (Cert.KernelIdeal.KShared.tgtIdx a2) u
      = Host.scatterAdd Cert.ReferenceIdeal.scatter_S100000x128_S1600000x1_S1600000x128_1_0_0_1
        (broadcastInDim Cert.ReferenceIdeal.S100000x128 ![] Cert.ReferenceIdeal.Gen.bcast_S_S100000x128
          (constant (F := Ideal) Cert.ReferenceIdeal.S_ .f32 0x00000000#32))
        (Cert.ReferenceIdeal.RefRun.rIdxT (F := Ideal) a2) u := by
  rw [scatter_dims, tgtIdx_eq]

end

end Cert.Cross

end
-- ==== Proof.RefRead.lean ====
import proofs.«142320_j24756191494620_2_alg».proof.Proof.Gen.ReferenceIdeal
import proofs.«142320_j24756191494620_2_alg».proof.Proof.Spec
import proofs.«142320_j24756191494620_2_alg».proof.Proof.LibDense
import proofs.«142320_j24756191494620_2_alg».proof.Proof.RefRun

/-!
# The reference's two dense stages, read at one entry

The reference computes the edge messages as `act(cat(xs, ea) · W1aᵀ + b1a) · W1bᵀ + b1b` and the node outputs as
`act(cat(xt, agg, ug) · W2aᵀ + b2a) · W2bᵀ + b2b`, with `act` the leaky rectifier written out as a comparison with
zero, a product with the slope, and a selection. Read at one entry, each stage is a scalar formula:
* a matrix product at (e, k) is the sum over the contracted coordinate; the transposed weight at (a, k) is the weight
  at (k, a) (`dense_apply`);
* the joined input at column a is the first piece for a < 64 and a later piece beyond, so the sum over the joined
  columns splits into the sums over the pieces (`concatCols3_0/1/2`, `h1_apply`, `h2_apply`);
* the twice-repeated bias at (e, k) is the bias at k;
* the written-out activation at an entry is the rectifier of the entry (`act_apply`).
Only regrouping of sums is used: nothing here needs the entries to be finite.
`msg_apply` and `out_apply` state the two stages of the reference at an entry as `Cert.Spec.edgeSpec` / `nodeSpec`.
-/

noncomputable section

namespace Cert.ReferenceIdeal.RefRead

open Cert.ReferenceIdeal Cert.ReferenceIdeal.Gen Idealize.ShloMosaic Idealize.ShloMosaic.ValueIdx
open Cert.Dense

/-! ## Three matrices joined side by side along the columns -/

section Concat3
variable {α : Type} {n p q s r : ℕ}
variable (x₁ : (⟨2, ![n, p]⟩ : Shape).Idx → α) (x₂ : (⟨2, ![n, q]⟩ : Shape).Idx → α) (x₃ : (⟨2, ![n, s]⟩ : Shape).Idx → α)
variable (h : Shape.Concatenates [(⟨2, ![n, p]⟩ : Shape), ⟨2, ![n, q]⟩, ⟨2, ![n, s]⟩] ⟨2, ![n, r]⟩ 1)

/-- A column of the first. -/
theorem concatCols3_0 (e : Fin n) (c : Fin p) (hc : c.val < r) :
    concatenate ⟨2, ![n, r]⟩ 1 [⟨⟨2, ![n, p]⟩, x₁⟩, ⟨⟨2, ![n, q]⟩, x₂⟩, ⟨⟨2, ![n, s]⟩, x₃⟩] h (ix2 e ⟨c.val, hc⟩) = x₁ (ix2 e c) :=
  concatenate_apply_piece (t := ⟨2, ![n, r]⟩) 1 [⟨⟨2, ![n, p]⟩, x₁⟩, ⟨⟨2, ![n, q]⟩, x₂⟩, ⟨⟨2, ![n, s]⟩, x₃⟩] h (ix2 e ⟨c.val, hc⟩) 0 (by simp) ⟨2, ![n, p]⟩ x₁ rfl rfl 0 rfl (ix2 e c)
    (fun b hb => match b with
      | ⟨0, _⟩ => rfl
      | ⟨1, _⟩ => absurd rfl hb)
    (Nat.zero_add _)

/-- A column of the second sits p columns to the right. -/
theorem concatCols3_1 (e : Fin n) (c : Fin q) (hc : p + c.val < r) :
    concatenate ⟨2, ![n, r]⟩ 1 [⟨⟨2, ![n, p]⟩, x₁⟩, ⟨⟨2, ![n, q]⟩, x₂⟩, ⟨⟨2, ![n, s]⟩, x₃⟩] h (ix2 e ⟨p + c.val, hc⟩) = x₂ (ix2 e c) :=
  concatenate_apply_piece (t := ⟨2, ![n, r]⟩) 1 [⟨⟨2, ![n, p]⟩, x₁⟩, ⟨⟨2, ![n, q]⟩, x₂⟩, ⟨⟨2, ![n, s]⟩, x₃⟩] h (ix2 e ⟨p + c.val, hc⟩) 1 (by simp) ⟨2, ![n, q]⟩ x₂ rfl rfl p (by first | rfl | simp) (ix2 e c)
    (fun b hb => match b with
      | ⟨0, _⟩ => rfl
      | ⟨1, _⟩ => absurd rfl hb)
    rfl

/-- A column of the third sits p + q columns to the right. -/
theorem concatCols3_2 (e : Fin n) (c : Fin s) (hc : p + q + c.val < r) :
    concatenate ⟨2, ![n, r]⟩ 1 [⟨⟨2, ![n, p]⟩, x₁⟩, ⟨⟨2, ![n, q]⟩, x₂⟩, ⟨⟨2, ![n, s]⟩, x₃⟩] h (ix2 e ⟨p + q + c.val, hc⟩) = x₃ (ix2 e c) :=
  concatenate_apply_piece (t := ⟨2, ![n, r]⟩) 1 [⟨⟨2, ![n, p]⟩, x₁⟩, ⟨⟨2, ![n, q]⟩, x₂⟩, ⟨⟨2, ![n, s]⟩, x₃⟩] h (ix2 e ⟨p + q + c.val, hc⟩) 2 (by simp) ⟨2, ![n, s]⟩ x₃ rfl rfl (p + q) (by first | rfl | simp) (ix2 e c)
    (fun b hb => match b with
      | ⟨0, _⟩ => rfl
      | ⟨1, _⟩ => absurd rfl hb)
    rfl

end Concat3

/-! ## The rectifier and a dense layer at one entry -/

/-- The inlined activation — compare with the zero splat, multiply by the slope's splat, select — at an entry is the
    leaky rectifier of the entry. -/
theorem act_apply {s : Shape} (hb : S_.BroadcastsInDim s (![] : Fin 0 → Fin s.rank)) (x : FVec Ideal s .f32) (i : s.Idx) :
    select (cmpf .oge x (broadcastInDim s ![] hb (constant S_ .f32 0x00000000#32)))
      x (mulf (broadcastInDim s ![] hb (id (constant S_ .f32 0x3DCCCCCD#32))) x) i = Cert.Spec.leaky (x i) := by
  rw [select_apply, cmpf_apply, mulf_apply, bcastScalar_apply, bcastScalar_apply]
  rfl

/-- A dense layer `X · Wᵀ + b` with the weight given output-first and the bias laid out as a row and repeated down the
    rows, at entry (e, o): the sum over the input coordinate of the products, plus the bias at o. -/
theorem dense_apply {m k n : ℕ} (w : DotDims.WF ⟨2, ![m, k]⟩ ⟨2, ![k, n]⟩ ⟨2, ![m, n]⟩ [1] [0] [0] [1] [] [])
    (X : FVec Ideal ⟨2, ![m, k]⟩ .f32) (W : FVec Ideal ⟨2, ![n, k]⟩ .f32) (b : FVec Ideal ⟨1, ![n]⟩ .f32)
    (ht : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![m, n]⟩ ![0, 1]) (e : Fin m) (o : Fin n) :
    addf (Host.dotGeneral (⟨[1], [0], [0], [1], [], [], w⟩ : DotDims ⟨2, ![m, k]⟩ ⟨2, ![k, n]⟩ ⟨2, ![m, n]⟩) none X
          (transpose ⟨2, ![k, n]⟩ [1, 0] W ht))
        (broadcastInDim ⟨2, ![m, n]⟩ ![0, 1] hb2 (broadcastInDim ⟨2, ![1, n]⟩ ![1] hb1 b)) (ix2 e o)
      = (∑ c : Fin k, X (ix2 e c) * W (ix2 o c)) + b (ix1 o) := by
  rw [addf_apply, hostDot_plain_apply, bcastRows_apply, bcastRow_apply]
  congr 1
  exact Finset.sum_congr rfl fun c _ => by rw [transpose_ix2_apply]

/-! ## The edge stage: two dense layers with the rectifier between, over the gathered sources and the edge attributes -/

section Edge
variable (xs ea : FVec Ideal S1600000x64 .f32) (W1a : FVec Ideal S128x128 .f32) (b1a : FVec Ideal S128 .f32)
  (W1b : FVec Ideal S128x128 .f32) (b1b : FVec Ideal S128 .f32)

/-- The first edge layer before the activation. -/
def lH1 : FVec Ideal S1600000x128 .f32 :=
  addf (Host.dotGeneral dot_S1600000x128_S128x128_S1600000x128_1_0_0_1_n_n none
      (concatenate S1600000x128 1 [⟨S1600000x64, xs⟩, ⟨S1600000x64, ea⟩] concatenates_S1600000x64_S1600000x64_S1600000x128_d1)
      (transpose S128x128 [1, 0] W1a transposes_S128x128_S128x128_1_0))
    (broadcastInDim S1600000x128 ![0, 1] bcast_S1x128_S1600000x128_0_1 (broadcastInDim S1x128 ![1] bcast_S128_S1x128_1 b1a))

/-- The activation, inlined. -/
def lAct1 (x : FVec Ideal S1600000x128 .f32) : FVec Ideal S1600000x128 .f32 :=
  select (cmpf .oge x (broadcastInDim S1600000x128 ![] bcast_S_S1600000x128 (constant S_ .f32 0x00000000#32)))
    x (mulf (broadcastInDim S1600000x128 ![] bcast_S_S1600000x128 (id (constant S_ .f32 0x3DCCCCCD#32))) x)

/-- The second edge layer. -/
def lMsg : FVec Ideal S1600000x128 .f32 :=
  addf (Host.dotGeneral dot_S1600000x128_S128x128_S1600000x128_1_0_0_1_n_n none (lAct1 (lH1 xs ea W1a b1a))
      (transpose S128x128 [1, 0] W1b transposes_S128x128_S128x128_1_0))
    (broadcastInDim S1600000x128 ![0, 1] bcast_S1x128_S1600000x128_0_1 (broadcastInDim S1x128 ![1] bcast_S128_S1x128_1 b1b))

/-- The first layer at (e, c): the contraction over the 128 joined input columns splits into the 64 gathered-source
    columns and the 64 edge-attribute columns. -/
theorem h1_apply (e : Fin 1600000) (c : Fin 128) :
    lH1 xs ea W1a b1a (ix2 e c)
      = (∑ a : Fin 64, xs (ix2 e a) * W1a (ix2 c ⟨a.val, by have := a.isLt; omega⟩)
          + ∑ a : Fin 64, ea (ix2 e a) * W1a (ix2 c ⟨64 + a.val, by have := a.isLt; omega⟩)) + b1a (ix1 c) := by
  unfold lH1 dot_S1600000x128_S128x128_S1600000x128_1_0_0_1_n_n
  rw [dense_apply, sum_split2 (p := 64) (q := 64) rfl]
  congr 2
  · exact Finset.sum_congr rfl fun a _ => by rw [concatCols2_left]
  · exact Finset.sum_congr rfl fun a _ => by rw [concatCols2_right]

/-- The edge message at (e, o) is the scalar formula. -/
theorem msg_core (e : Fin 1600000) (o : Fin 128) :
    lMsg xs ea W1a b1a W1b b1b (ix2 e o) = Cert.Spec.edgeSpec xs ea W1a b1a W1b b1b e o := by
  unfold lMsg dot_S1600000x128_S128x128_S1600000x128_1_0_0_1_n_n
  rw [dense_apply]
  unfold Cert.Spec.edgeSpec
  congr 1
  refine Finset.sum_congr rfl fun c _ => ?_
  unfold lAct1
  rw [act_apply, h1_apply]

end Edge

/-! ## The node stage: two dense layers with the rectifier between, over the node's features, the aggregated
    messages and the gathered graph features -/

section Node
variable (xt : FVec Ideal S100000x64 .f32) (agg : FVec Ideal S100000x128 .f32) (ug : FVec Ideal S100000x64 .f32)
  (W2a : FVec Ideal S64x256 .f32) (b2a : FVec Ideal S64 .f32) (W2b : FVec Ideal S64x64 .f32) (b2b : FVec Ideal S64 .f32)

/-- The first node layer before the activation. -/
def lH2 : FVec Ideal S100000x64 .f32 :=
  addf (Host.dotGeneral dot_S100000x256_S256x64_S100000x64_1_0_0_1_n_n none
      (concatenate S100000x256 1 [⟨S100000x64, xt⟩, ⟨S100000x128, agg⟩, ⟨S100000x64, ug⟩] concatenates_S100000x64_S100000x128_S100000x64_S100000x256_d1)
      (transpose S256x64 [1, 0] W2a transposes_S64x256_S256x64_1_0))
    (broadcastInDim S100000x64 ![0, 1] bcast_S1x64_S100000x64_0_1 (broadcastInDim S1x64 ![1] bcast_S64_S1x64_1 b2a))

/-- The activation, inlined. -/
def lAct2 (x : FVec Ideal S100000x64 .f32) : FVec Ideal S100000x64 .f32 :=
  select (cmpf .oge x (broadcastInDim S100000x64 ![] bcast_S_S100000x64 (constant S_ .f32 0x00000000#32)))
    x (mulf (broadcastInDim S100000x64 ![] bcast_S_S100000x64 (id (constant S_ .f32 0x3DCCCCCD#32))) x)

/-- The second node layer. -/
def lOut : FVec Ideal S100000x64 .f32 :=
  addf (Host.dotGeneral dot_S100000x64_S64x64_S100000x64_1_0_0_1_n_n none (lAct2 (lH2 xt agg ug W2a b2a))
      (transpose S64x64 [1, 0] W2b transposes_S64x64_S64x64_1_0))
    (broadcastInDim S100000x64 ![0, 1] bcast_S1x64_S100000x64_0_1 (broadcastInDim S1x64 ![1] bcast_S64_S1x64_1 b2b))

/-- The first layer at (n, c): the contraction over the 256 joined input columns splits into the node's 64, the
    aggregate's 128 and the graph features' 64. -/
theorem h2_apply (e : Fin 100000) (c : Fin 64) :
    lH2 xt agg ug W2a b2a (ix2 e c)
      = ((∑ a : Fin 64, xt (ix2 e a) * W2a (ix2 c ⟨a.val, by have := a.isLt; omega⟩)
          + ∑ a : Fin 128, agg (ix2 e a) * W2a (ix2 c ⟨64 + a.val, by have := a.isLt; omega⟩))
          + ∑ a : Fin 64, ug (ix2 e a) * W2a (ix2 c ⟨64 + 128 + a.val, by have := a.isLt; omega⟩)) + b2a (ix1 c) := by
  unfold lH2 dot_S100000x256_S256x64_S100000x64_1_0_0_1_n_n
  rw [dense_apply, sum_split3 (p := 64) (q := 128) (s := 64) rfl]
  congr 1
  congr 1
  · congr 1
    · exact Finset.sum_congr rfl fun a _ => by rw [concatCols3_0]
    · exact Finset.sum_congr rfl fun a _ => by rw [concatCols3_1]
  · exact Finset.sum_congr rfl fun a _ => by rw [concatCols3_2]

/-- The node output at (n, o) is the scalar formula. -/
theorem out_core (e : Fin 100000) (o : Fin 64) :
    lOut xt agg ug W2a b2a W2b b2b (ix2 e o) = Cert.Spec.nodeSpec xt agg ug W2a b2a W2b b2b e o := by
  unfold lOut dot_S100000x64_S64x64_S100000x64_1_0_0_1_n_n
  rw [dense_apply]
  unfold Cert.Spec.nodeSpec
  congr 1
  refine Finset.sum_congr rfl fun c _ => ?_
  unfold lAct2
  rw [act_apply, h2_apply]

end Node

/-! ## The reference's two dense stages at one entry -/

section Stages
variable (a0 a1 : FVec Ideal S100000x64 .f32) (a2 : IVec S2x1600000 32) (a3 : FVec Ideal S1600000x64 .f32)
  (a4 : FVec Ideal S64x64 .f32) (a5 : IVec S100000 32) (a6 : FVec Ideal S128x128 .f32) (a7 : FVec Ideal S128 .f32)
  (a8 : FVec Ideal S128x128 .f32) (a9 : FVec Ideal S128 .f32) (a10 : FVec Ideal S64x256 .f32) (a11 : FVec Ideal S64 .f32)
  (a12 : FVec Ideal S64x64 .f32) (a13 : FVec Ideal S64 .f32)

/-- The reference's message at (edge e, feature o) is the edge formula over the gathered source rows and the
    weights as given. -/
theorem msg_apply (e : Fin 1600000) (o : Fin 128) :
    RefRun.rMsg (F := Ideal) a0 a2 a3 a6 a7 a8 a9 (ix2 e o)
      = Cert.Spec.edgeSpec (RefRun.rXs (F := Ideal) a0 a2) a3 a6 a7 a8 a9 e o := by
  unfold RefRun.rMsg RefRun.rAct1 RefRun.rH1 RefRun.rCat1
  exact msg_core (RefRun.rXs (F := Ideal) a0 a2) a3 a6 a7 a8 a9 e o

/-- The reference's output at (node n, feature o) is the node formula over the second node features, the summed
    messages and the gathered table rows, and the weights as given. -/
theorem out_apply (n : Fin 100000) (o : Fin 64) :
    RefRun.rOut (F := Ideal) a0 a1 a2 a3 a4 a5 a6 a7 a8 a9 a10 a11 a12 a13 (ix2 n o)
      = Cert.Spec.nodeSpec a1 (RefRun.rAgg (F := Ideal) a0 a2 a3 a6 a7 a8 a9) (RefRun.rUg (F := Ideal) a4 a5) a10 a11 a12 a13 n o := by
  unfold RefRun.rOut RefRun.rAct2 RefRun.rH2 RefRun.rCat2
  exact out_core a1 (RefRun.rAgg (F := Ideal) a0 a2 a3 a6 a7 a8 a9) (RefRun.rUg (F := Ideal) a4 a5) a10 a11 a12 a13 n o

end Stages

end Cert.ReferenceIdeal.RefRead

end
-- ==== Proof.Bridge.lean ====
/-
  The two programs compute one function of the arguments.
  Edge stage: both form, for every edge e and feature o,
      ∑ k, leaky(∑ a<64 xs(e,a)·W1a(k,a) + ∑ a<64 ea(e,a)·W1a(k,64+a) + b1a(k)) · W1b(o,k) + b1b(o)
  — the kernel as two 64-wide products against the two row blocks of the transposed weights, the reference as one
  128-wide product against the side-by-side inputs; a sum over 128 columns is the sum over the first 64 plus the sum over
  the last 64 (addition on the extended reals is a commutative monoid, so this needs no finiteness). The messages are
  then equal as whole arrays, hence so are their scatter-sums; the node stage is the same argument with three blocks
  (64 + 128 + 64 columns).
-/
import proofs.«142320_j24756191494620_2_alg».proof.Proof.KValue
import proofs.«142320_j24756191494620_2_alg».proof.Proof.KShared
import proofs.«142320_j24756191494620_2_alg».proof.Proof.Cross
import proofs.«142320_j24756191494620_2_alg».proof.Proof.RefRun
import proofs.«142320_j24756191494620_2_alg».proof.Proof.RefRead

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The edge region leaves the reference's messages. -/
theorem msg_eq :
    W2 m ρ c (Proc.devRef .tc main_v17)
      = Cert.ReferenceIdeal.RefRun.rMsg (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  show (W2 m ρ c (Proc.devRef .tc main_v17) : Vec Ideal S1600000x128 .f32) = _
  funext i
  obtain ⟨e, o, rfl⟩ : ∃ (e : Fin 1600000) (o : Fin 128), i = ix2 e o := ⟨i 0, i 1, eq_ix2 i⟩
  rw [Cert.KernelIdeal.KValue.msg_apply m ρ c e o, Cert.KernelIdeal.KShared.xs_eq m ρ c, Cert.Cross.xs_cross]
  exact (Cert.ReferenceIdeal.RefRead.msg_apply _ _ _ _ _ _ _ e o).symm

/-- The node region's second input is the reference's aggregated messages. -/
theorem agg_eq :
    W3 m ρ c (Proc.devRef .tc main_v20)
      = Cert.ReferenceIdeal.RefRun.rAgg (F := Ideal) (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  rw [Cert.KernelIdeal.KShared.agg_eq m ρ c, msg_eq m ρ c, Cert.Cross.agg_cross]
  unfold Cert.ReferenceIdeal.RefRun.rAgg
  rfl

/-- The node region's third input is the reference's gathered graph features. -/
theorem ug_eq :
    W3 m ρ c (Proc.devRef .tc main_v27) = Cert.ReferenceIdeal.RefRun.rUg (F := Ideal) (m ((c : Thread nD τ).loc main_arg4)) (m ((c : Thread nD τ).loc main_arg5)) := by
  rw [Cert.KernelIdeal.KShared.ug_eq m ρ c, Cert.Cross.ug_cross]

/-- The kernel program's result array is the reference's result, as functions of the arguments. -/
theorem result_eq :
    W4 m ρ c (Proc.devRef .tc main_v35)
      = Cert.ReferenceIdeal.RefRun.rOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show (W4 m ρ c (Proc.devRef .tc main_v35) : Vec Ideal S100000x64 .f32) = _
  funext i
  obtain ⟨n, o, rfl⟩ : ∃ (n : Fin 100000) (o : Fin 64), i = ix2 n o := ⟨i 0, i 1, eq_ix2 i⟩
  rw [Cert.KernelIdeal.KValue.out_apply m ρ c n o, agg_eq m ρ c, ug_eq m ρ c]
  exact (Cert.ReferenceIdeal.RefRead.out_apply _ _ _ _ _ _ _ _ _ _ _ _ _ _ n o).symm

end Cert.Bridge

end
-- ==== Proof.lean ====
/-
  The certificate of a message-passing layer: gather the source features along the edges, a two-layer perceptron per edge
  (leaky rectifier, slope 0.1), scatter-sum onto the target nodes, gather the per-graph features along the nodes, and a
  two-layer perceptron per node.
  The kernel program runs the two perceptrons as tiled TensorCore regions (200 blocks of 8000 edges, 20 blocks of 5000
  nodes) whose first layer multiplies each input block by its own row block of the transposed weights; the reference
  multiplies the side-by-side inputs by the whole transposed weights. On the extended reals the bf16 casts are the
  identity and a sum over the joined columns is the sum of the sums over the pieces, so both programs end with the same
  result array (`Bridge.result_eq`). The three frames are the generated frame certificates (the reference's is its run
  with the result dropped); the idealization rewrote nothing, so `preserves` is trivial.
-/
import proofs.«142320_j24756191494620_2_alg».proof.Defs
import proofs.«142320_j24756191494620_2_alg».proof.Proof.Gen.Kernel
import proofs.«142320_j24756191494620_2_alg».proof.Proof.Gen.Kernel.Skeleton
import proofs.«142320_j24756191494620_2_alg».proof.Proof.Gen.Kernel.Launch
import proofs.«142320_j24756191494620_2_alg».proof.Proof.Gen.Kernel.Points
import proofs.«142320_j24756191494620_2_alg».proof.Proof.Gen.Kernel.Frame
import proofs.«142320_j24756191494620_2_alg».proof.Proof.Gen.KernelIdeal
import proofs.«142320_j24756191494620_2_alg».proof.Proof.Gen.KernelIdeal.Skeleton
import proofs.«142320_j24756191494620_2_alg».proof.Proof.Gen.KernelIdeal.Launch
import proofs.«142320_j24756191494620_2_alg».proof.Proof.Gen.KernelIdeal.Points
import proofs.«142320_j24756191494620_2_alg».proof.Proof.Gen.KernelIdeal.Frame
import proofs.«142320_j24756191494620_2_alg».proof.Proof.Gen.ReferenceIdeal
import proofs.«142320_j24756191494620_2_alg».proof.Proof.Gen.Pre_finite_inputs
import proofs.«142320_j24756191494620_2_alg».proof.Proof.KRun
import proofs.«142320_j24756191494620_2_alg».proof.Proof.RefRun
import proofs.«142320_j24756191494620_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs, from memories agreeing on the arguments, end with the kernel program's result array. -/
theorem algebraic : Cert.algebraic_KernelIdeal_ReferenceIdeal := by
  intro m ρ m' ρ' _ hagree
  refine ⟨fun c => Cert.KernelIdeal.Gen.W4 m ρ c (Proc.devRef .tc Cert.KernelIdeal.main_v35),
    Cert.KernelIdeal.KRun.run m ρ, ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3, h4, h5, h6, h7, h8, h9, h10, h11, h12, h13⟩ := hagree c
  rw [h0, h1, h2, h3, h4, h5, h6, h7, h8, h9, h10, h11, h12, h13]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
